-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S80x10000 : Shape := ⟨2, ![80, 10000]⟩
abbrev S80x128 : Shape := ⟨2, ![80, 128]⟩
abbrev S400x10000 : Shape := ⟨2, ![400, 10000]⟩
abbrev S400x128 : Shape := ⟨2, ![400, 128]⟩

abbrev nBuf : Space → Nat
  | .hbm => 23
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S10000x128, .bf16⟩
  | .hbm, ⟨14, _⟩ => ⟨S1x128, .f32⟩
  | .hbm, ⟨15, _⟩ => ⟨S10000x10000, .bf16⟩
  | .hbm, ⟨16, _⟩ => ⟨S10000x128, .bf16⟩
  | .hbm, ⟨17, _⟩ => ⟨S1x128, .f32⟩
  | .hbm, ⟨18, _⟩ => ⟨S10000x128, .bf16⟩
  | .hbm, ⟨19, _⟩ => ⟨S1x128, .f32⟩
  | .hbm, ⟨20, _⟩ => ⟨S1x128, .f32⟩
  | .hbm, ⟨21, _⟩ => ⟨S10000x128, .f32⟩
  | .hbm, ⟨22, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .bf16⟩
  | .local _ .vmem, ⟨5, _⟩ => ⟨S2000x128, .bf16⟩
  | .local _ .vmem, ⟨6, _⟩ => ⟨S80x10000, .f32⟩
  | .local _ .vmem, ⟨7, _⟩ => ⟨S80x10000, .f32⟩
  | .local _ .vmem, ⟨8, _⟩ => ⟨S10000x128, .bf16⟩
  | .local _ .vmem, ⟨9, _⟩ => ⟨S128x128, .f32⟩
  | .local _ .vmem, ⟨10, _⟩ => ⟨S1x128, .f32⟩
  | .local _ .vmem, ⟨11, _⟩ => ⟨S80x10000, .bf16⟩
  | .local _ .vmem, ⟨12, _⟩ => ⟨S80x10000, .bf16⟩
  | .local _ .vmem, ⟨13, _⟩ => ⟨S80x128, .bf16⟩
  | .local _ .vmem, ⟨14, _⟩ => ⟨S80x128, .bf16⟩
  | .local _ .vmem, ⟨15, _⟩ => ⟨S400x10000, .bf16⟩
  | .local _ .vmem, ⟨16, _⟩ => ⟨S400x10000, .bf16⟩
  | .local _ .vmem, ⟨17, _⟩ => ⟨S10000x128, .bf16⟩
  | .local _ .vmem, ⟨18, _⟩ => ⟨S128x128, .f32⟩
  | .local _ .vmem, ⟨19, _⟩ => ⟨S1x128, .f32⟩
  | .local _ .vmem, ⟨20, _⟩ => ⟨S400x128, .bf16⟩
  | .local _ .vmem, ⟨21, _⟩ => ⟨S400x128, .bf16⟩
  | .local _ .vmem, ⟨22, _⟩ => ⟨S400x10000, .bf16⟩
  | .local _ .vmem, ⟨23, _⟩ => ⟨S400x10000, .bf16⟩
  | .local _ .vmem, ⟨24, _⟩ => ⟨S10000x128, .bf16⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S400x128, .f32⟩
  | .local _ .vmem, ⟨30, _⟩ => ⟨S400x128, .f32⟩
  | .local _ .vmem, ⟨31, _⟩ => ⟨S400x128, .f32⟩
  | .local _ .vmem, ⟨32, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg6_1 : Ref sig .tc := ⟨.vmem, 30, rfl⟩
abbrev cc3_stg7_0 : Ref sig .tc := ⟨.vmem, 31, rfl⟩
abbrev cc3_stg7_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem6_1 : DmaSem sig := 30
abbrev cc3_sem7_0 : DmaSem sig := 31
abbrev cc3_sem7_1 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S80x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S80x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S400x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S400x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S80x10000_S80x10000_0_0 : ∀ a, (![0, 0] : Fin 2 → Nat) a + S80x10000.size a ≤ S80x10000.size a
  h_S80x10000 : 0 < S80x10000.numel
  packedbf16_S80x10000_S80x10000_0_0 : (Rect.unit (s := S80x10000) ![0, 0] S80x10000.size inb_S80x10000_S80x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S80x128 : S1x128.Broadcasts S80x128
  inb_S80x128_S80x128_0_0 : ∀ a, (![0, 0] : Fin 2 → Nat) a + S80x128.size a ≤ S80x128.size a
  h_S80x128 : 0 < S80x128.numel
  packedbf16_S80x128_S80x128_0_0 : (Rect.unit (s := S80x128) ![0, 0] S80x128.size inb_S80x128_S80x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  dot_S2000x128_S128x128_S2000x128_1_0_0_1_n_n_wf : DotDims.WF S2000x128 S128x128 S2000x128 [1] [0] [0] [1] [] []
  dot_S80x10000_S10000x128_S80x128_1_0_0_1_n_n_wf : DotDims.WF S80x10000 S10000x128 S80x128 [1] [0] [0] [1] [] []
  dot_S80x128_S128x128_S80x128_1_0_0_1_n_n_wf : DotDims.WF S80x128 S128x128 S80x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .bf16 = 32 ∨ (Rect.block (s := S10000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S80x10000.size a ≤ S10000x10000.size a
  hwx1_4 : ∀ i : grid1.Coords, EltTy.bits .bf16 = 32 ∨ (Rect.block (s := S10000x10000) S80x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S80x128.size a ≤ S10000x128.size a
  hwx1_5 : ∀ i : grid1.Coords, EltTy.bits .bf16 = 32 ∨ (Rect.block (s := S10000x128) S80x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .bf16 = 32 ∨ (Rect.block (s := S10000x128) S400x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x128.size a ≤ S10000x128.size a
  hwx3_6 : ∀ i : grid3.Coords, EltTy.bits .f32 = 32 ∨ (Rect.block (s := S10000x128) S400x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x128.size a ≤ S10000x128.size a
  hwx3_7 : ∀ i : grid3.Coords, EltTy.bits .f32 = 32 ∨ (Rect.block (s := S10000x128) S400x128.size (cc3_transform_7 i) (hinb3_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S80x128_S128x128_S80x128_1_0_0_1_n_n : DotDims S80x128 S128x128 S80x128 where
  lhsContracting := [1]
  rhsContracting := [0]
  lhsNonContracting := [0]
  rhsNonContracting := [1]
  lhsBatch := []
  rhsBatch := []
  wf := dot_S80x128_S128x128_S80x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S80x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S80x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v3_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v3_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v8_0) S400x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v8_1) S400x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S10000x128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S1x128, .f32⟩
  | .hbm, ⟨42, _⟩ => ⟨S10000x128, .f32⟩
  | .hbm, ⟨43, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call2_cst : Ref sig .tc := ⟨.hbm, 37, rfl⟩
abbrev main_call2_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.RunKept.lean ====
/-
  The idealized kernel's run, read with its two results kept. The program is four pipelined regions among stretches
  of host reshapes; its generated frame follows every unscoped buffer's contents from the launch memory through the
  eight segment boundaries and, at the end, keeps only the arguments. Here the same chain of segments is launched once
  more and the final state is read at the two result buffers too: each ends holding what the last boundary's contents
  give it, and every argument ends as launched.
-/
import proofs.«135985_g30502857736250_cont_9to1_2214_3_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault; the second result (the head's output) and the
    first (the embedding) end at the last boundary's contents of their buffers, and the arguments end unchanged. -/
theorem run : θ_run defs (onTc (τ := τ) (main (F := F))) ⟨m, fun _ => 0, ρ⟩ (fun r => ∀ c : Dev nD,
      r.2.mem ((c.tc : Thread nD τ).loc main_v8_1) = W8 m ρ c (Proc.devRef .tc main_v8_1)
      ∧ r.2.mem ((c.tc : Thread nD τ).loc main_v8_0) = W8 m ρ c (Proc.devRef .tc main_v8_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v8_1 (by decide)),
       h c _ (mem_uc main_v8_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Kept

end
-- ==== Proof.Spec.lean ====
/-
  The mathematics of the claim, with no program in sight: a three-layer dense graph convolution and a two-layer
  projection head over the extended reals. A matrix is a function of a two-coordinate index, a bias a function of a
  one-coordinate index. Every layer multiplies the adjacency matrix with an affine image of the previous layer's
  activations; the head is affine, rectified, affine.
-/
import Idealize.ShloMosaic.PureOps.Ideal
import Idealize.ShloMosaic.Lib.ValueIdx

noncomputable section

namespace Cert.Gcn

open Idealize.ShloMosaic Idealize.ShloMosaic.ValueIdx

/-- An `r × c` matrix of extended reals. -/
abbrev Mat (r c : Nat) : Type := (⟨2, ![r, c]⟩ : Shape).Idx → EReal
/-- A vector of `n` extended reals. -/
abbrev Row (n : Nat) : Type := (⟨1, ![n]⟩ : Shape).Idx → EReal

/-- The matrix product: entry `(p, q)` is the sum over `k` of `X (p, k) · W (k, q)`. -/
def prod {n d h : Nat} (X : Mat n d) (W : Mat d h) : Mat n h :=
  fun i => ∑ k : Fin d, X (ix2 (i 0) k) * W (ix2 k (i 1))

/-- A bias added to every row: entry `(p, q)` gains `b q`. -/
def addRow {n h : Nat} (X : Mat n h) (b : Row h) : Mat n h := fun i => X i + b (ix1 (i 1))

/-- The same with the bias laid out as a one-row matrix. -/
def addRowM {n h : Nat} (X : Mat n h) (B : Mat 1 h) : Mat n h := fun i => X i + B (ix2 (0 : Fin 1) (i 1))

/-- A vector laid out as a one-row matrix. -/
def rowOf {h : Nat} (b : Row h) : Mat 1 h := fun j => b (ix1 (j 1))

/-- Adding the one-row layout of a bias is adding the bias. -/
theorem addRowM_rowOf {n h : Nat} (X : Mat n h) (b : Row h) : addRowM X (rowOf b) = addRow X b := rfl

/-- The rectifier, entry by entry: the larger of the entry and zero. -/
def relu {n h : Nat} (X : Mat n h) : Mat n h := fun i => max (X i) 0

/-- The rows `ρ r` of a matrix, in the order of `r`: what a block of consecutive rows is. -/
def rowsAt {bm n d : Nat} (ρ : Fin bm → Fin n) (X : Mat n d) : Mat bm d := fun j => X (ix2 (ρ (j 0)) (j 1))

/-- Every operation below acts row by row on its first operand, so it commutes with taking rows. -/
theorem prod_rowsAt {bm n d h : Nat} (ρ : Fin bm → Fin n) (X : Mat n d) (W : Mat d h) :
    prod (rowsAt ρ X) W = rowsAt ρ (prod X W) := rfl
theorem relu_rowsAt {bm n h : Nat} (ρ : Fin bm → Fin n) (X : Mat n h) : relu (rowsAt ρ X) = rowsAt ρ (relu X) := rfl
theorem addRowM_rowsAt {bm n h : Nat} (ρ : Fin bm → Fin n) (X : Mat n h) (B : Mat 1 h) :
    addRowM (rowsAt ρ X) B = rowsAt ρ (addRowM X B) := rfl

/-- One graph convolution: the adjacency matrix times the affine image `X · W + b`. -/
def conv {n d h : Nat} (A : Mat n n) (X : Mat n d) (W : Mat d h) (b : Row h) : Mat n h :=
  prod A (addRow (prod X W) b)

/-- The embedding: three convolutions, the first two rectified. -/
def emb {n d : Nat} (A : Mat n n) (x : Mat n d) (W1 : Mat d d) (b1 : Row d) (W2 : Mat d d) (b2 : Row d)
    (W3 : Mat d d) (b3 : Row d) : Mat n d :=
  conv A (relu (conv A (relu (conv A x W1 b1)) W2 b2)) W3 b3

/-- The projection head on an embedding: affine, rectified, affine. -/
def head {n d : Nat} (e : Mat n d) (Wp1 : Mat d d) (bp1 : Row d) (Wp2 : Mat d d) (bp2 : Row d) : Mat n d :=
  addRow (prod (relu (addRow (prod e Wp1) bp1)) Wp2) bp2

end Cert.Gcn

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.KernelOps.lean ====
/-
  The vector operations the four kernel bodies are made of, read at the exact extended reals as the specification's
  matrix operations: each `tpu.matmul` into a zero accumulator is the matrix product, a maximum with the zero splat is
  the rectifier, adding a broadcast one-row bias is adding that row to every row, and a change of float format is the
  identity.
-/
import proofs.«135985_g30502857736250_cont_9to1_2214_3_alg».proof.Proof.Gen.KernelIdeal
import proofs.«135985_g30502857736250_cont_9to1_2214_3_alg».proof.Proof.Spec
import proofs.«135985_g30502857736250_cont_9to1_2214_3_alg».proof.Proof.LibMatmul
import Idealize.ShloMosaic.Lib.Pipeline.Value
import Idealize.ShloMosaic.Lib.ValueLayout

noncomputable section

namespace Cert.KernelIdeal.Ops

open Cert.KernelIdeal Idealize.ShloMosaic Idealize.ShloMosaic.TcCoe Idealize.ShloMosaic.ValueIdx Cert.Gcn

/-- The `[2000, 128] × [128, 128]` product of the kernel into zeros is the matrix product. -/
theorem prod_2000_128 {φ₁ φ₂ : FTy} (lhs : FVec Ideal S2000x128 φ₁) (rhs : FVec Ideal S128x128 φ₂) :
    matmul dot_S2000x128_S128x128_S2000x128_1_0_0_1_n_n none lhs rhs (constant S2000x128 .f32 0x00000000#32) = prod lhs rhs :=
  funext fun j => Cert.LibMatmul.matmul_zero_ix2 dot_S2000x128_S128x128_S2000x128_1_0_0_1_n_n none rfl rfl
    (fun j q => by
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl)
    (fun j q => dot_S2000x128_S128x128_S2000x128_1_0_0_1_n_n.lhsIdx_val_of_single rfl j q)
    (fun j q => dot_S2000x128_S128x128_S2000x128_1_0_0_1_n_n.rhsIdx_val_of_single rfl j q)
    (fun j q => by
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
    lhs rhs j

/-- The `[80, 10000] × [10000, 128]` product of the kernel into zeros is the matrix product. -/
theorem prod_80_10000 {φ₁ φ₂ : FTy} (lhs : FVec Ideal S80x10000 φ₁) (rhs : FVec Ideal S10000x128 φ₂) :
    matmul dot_S80x10000_S10000x128_S80x128_1_0_0_1_n_n none lhs rhs (constant S80x128 .f32 0x00000000#32) = prod lhs rhs :=
  funext fun j => Cert.LibMatmul.matmul_zero_ix2 dot_S80x10000_S10000x128_S80x128_1_0_0_1_n_n none rfl rfl
    (fun j q => by
      unfold DotDims.lhsIdx
      rw [dif_neg (show ¬(0 : Fin S80x10000.rank) ∈ dot_S80x10000_S10000x128_S80x128_1_0_0_1_n_n.lhsBatch by decide), dif_pos (show (0 : Fin S80x10000.rank) ∈ dot_S80x10000_S10000x128_S80x128_1_0_0_1_n_n.lhsNonContracting by decide)]
      rfl)
    (fun j q => dot_S80x10000_S10000x128_S80x128_1_0_0_1_n_n.lhsIdx_val_of_single rfl j q)
    (fun j q => dot_S80x10000_S10000x128_S80x128_1_0_0_1_n_n.rhsIdx_val_of_single rfl j q)
    (fun j q => by
      unfold DotDims.rhsIdx
      rw [dif_neg (show ¬(1 : Fin S10000x128.rank) ∈ dot_S80x10000_S10000x128_S80x128_1_0_0_1_n_n.rhsBatch by decide), dif_pos (show (1 : Fin S10000x128.rank) ∈ dot_S80x10000_S10000x128_S80x128_1_0_0_1_n_n.rhsNonContracting by decide)]
      rfl)
    lhs rhs j

/-- The `[80, 128] × [128, 128]` product of the kernel into zeros is the matrix product. -/
theorem prod_80_128 {φ₁ φ₂ : FTy} (lhs : FVec Ideal S80x128 φ₁) (rhs : FVec Ideal S128x128 φ₂) :
    matmul dot_S80x128_S128x128_S80x128_1_0_0_1_n_n none lhs rhs (constant S80x128 .f32 0x00000000#32) = prod lhs rhs :=
  funext fun j => Cert.LibMatmul.matmul_zero_ix2 dot_S80x128_S128x128_S80x128_1_0_0_1_n_n none rfl rfl
    (fun j q => by
      unfold DotDims.lhsIdx
      rw [dif_neg (show ¬(0 : Fin S80x128.rank) ∈ dot_S80x128_S128x128_S80x128_1_0_0_1_n_n.lhsBatch by decide), dif_pos (show (0 : Fin S80x128.rank) ∈ dot_S80x128_S128x128_S80x128_1_0_0_1_n_n.lhsNonContracting by decide)]
      rfl)
    (fun j q => dot_S80x128_S128x128_S80x128_1_0_0_1_n_n.lhsIdx_val_of_single rfl j q)
    (fun j q => dot_S80x128_S128x128_S80x128_1_0_0_1_n_n.rhsIdx_val_of_single rfl j q)
    (fun j q => by
      unfold DotDims.rhsIdx
      rw [dif_neg (show ¬(1 : Fin S128x128.rank) ∈ dot_S80x128_S128x128_S80x128_1_0_0_1_n_n.rhsBatch by decide), dif_pos (show (1 : Fin S128x128.rank) ∈ dot_S80x128_S128x128_S80x128_1_0_0_1_n_n.rhsNonContracting by decide)]
      rfl)
    lhs rhs j

/-- The `[400, 10000] × [10000, 128]` product of the kernel into zeros is the matrix product. -/
theorem prod_400_10000 {φ₁ φ₂ : FTy} (lhs : FVec Ideal S400x10000 φ₁) (rhs : FVec Ideal S10000x128 φ₂) :
    matmul dot_S400x10000_S10000x128_S400x128_1_0_0_1_n_n none lhs rhs (constant S400x128 .f32 0x00000000#32) = prod lhs rhs :=
  funext fun j => Cert.LibMatmul.matmul_zero_ix2 dot_S400x10000_S10000x128_S400x128_1_0_0_1_n_n none rfl rfl
    (fun j q => by
      unfold DotDims.lhsIdx
      rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
      rfl)
    (fun j q => dot_S400x10000_S10000x128_S400x128_1_0_0_1_n_n.lhsIdx_val_of_single rfl j q)
    (fun j q => dot_S400x10000_S10000x128_S400x128_1_0_0_1_n_n.rhsIdx_val_of_single rfl j q)
    (fun j q => by
      unfold DotDims.rhsIdx
      rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
      rfl)
    lhs rhs j

/-- The `[400, 128] × [128, 128]` product of the kernel into zeros is the matrix product. -/
theorem prod_400_128 {φ₁ φ₂ : FTy} (lhs : FVec Ideal S400x128 φ₁) (rhs : FVec Ideal S128x128 φ₂) :
    matmul dot_S400x128_S128x128_S400x128_1_0_0_1_n_n none lhs rhs (constant S400x128 .f32 0x00000000#32) = prod lhs rhs :=
  funext fun j => Cert.LibMatmul.matmul_zero_ix2 dot_S400x128_S128x128_S400x128_1_0_0_1_n_n none rfl rfl
    (fun j q => by
      unfold DotDims.lhsIdx
      rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
      rfl)
    (fun j q => dot_S400x128_S128x128_S400x128_1_0_0_1_n_n.lhsIdx_val_of_single rfl j q)
    (fun j q => dot_S400x128_S128x128_S400x128_1_0_0_1_n_n.rhsIdx_val_of_single rfl j q)
    (fun j q => by
      unfold DotDims.rhsIdx
      rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
      rfl)
    lhs rhs j

/-- The larger of an entry and the zero word's value is the rectifier: the zero word denotes zero. -/
theorem relu_eq {a b : Nat} (X : FVec Ideal ⟨2, ![a, b]⟩ .f32) :
    maximumf X (broadcast ⟨2, ![a, b]⟩ (Scalar.ofBits (F := Ideal) .f32 0x00000000#32)) = relu X := by
  funext i
  show max (X i) (Ideal.ofBits .f32 0x00000000#32) = max (X i) 0
  rw [Ideal.ofBits_zero_f32]

/-- A one-row bias, recast to its own shape and broadcast down the rows, added entry by entry. -/
theorem addRow_eq {a b : Nat} (X : FVec Ideal ⟨2, ![a, b]⟩ .f32) (B : FVec Ideal ⟨2, ![1, b]⟩ .f32)
    (h1 : (⟨2, ![1, b]⟩ : Shape).ShapeCasts ⟨2, ![1, b]⟩) (h2 : (⟨2, ![1, b]⟩ : Shape).Broadcasts ⟨2, ![a, b]⟩) :
    addf X (broadcastTo ⟨2, ![a, b]⟩ (shapeCast ⟨2, ![1, b]⟩ B h1) h2) = addRowM X B := by
  funext j
  obtain ⟨p, q, rfl⟩ : ∃ (p : Fin a) (q : Fin b), j = ix2 p q := ⟨j 0, j 1, eq_ix2 j⟩
  rw [shapeCast_self]
  show X (ix2 p q) + broadcastTo ⟨2, ![a, b]⟩ B h2 (ix2 p q) = X (ix2 p q) + B (ix2 (0 : Fin 1) q)
  rw [broadcastTo_1b_ab_apply]

/-- Narrowing the float format changes no value. -/
theorem truncf_eq {s : Shape} {φ ψ : FTy} (X : FVec Ideal s φ) (h : ψ.bits < φ.bits) : truncf ψ X h = X := rfl

end Cert.KernelIdeal.Ops

end
-- ==== Proof.Payloads.lean ====
/-
  What each kernel body stores, as the specification's matrix operations of the blocks it loads. The first body
  stores an affine image; the second a copy of its adjacency block and the next layer's affine image of the rectified
  aggregate; the third the same from the copied adjacency; the fourth the aggregate itself (the embedding block) and
  the projection head of it.
-/
import proofs.«135985_g30502857736250_cont_9to1_2214_3_alg».proof.Proof.Gen.KernelIdeal.Skeleton
import proofs.«135985_g30502857736250_cont_9to1_2214_3_alg».proof.Proof.KernelOps

noncomputable section

namespace Cert.KernelIdeal.Pay

open Cert.KernelIdeal Cert.KernelIdeal.Gen Cert.KernelIdeal.Ops
open Idealize.ShloMosaic Idealize.ShloMosaic.TcCoe Idealize.ShloMosaic.ValueIdx Cert.Gcn

/-- The first body: `x · W + b`. -/
theorem affine_block (x0 : Vec Ideal S2000x128 .f32) (x1 : Vec Ideal S128x128 .f32) (x3 : Vec Ideal S1x128 .f32) :
    k0_pay1 (F := Ideal) x0 x1 x3 = addRowM (prod x0 x1) x3 := by
  unfold k0_pay1
  dsimp only
  rw [truncf_eq, prod_2000_128, addRow_eq]

/-- The second body's first store: the adjacency block itself. -/
theorem copy_block (x0 : Vec Ideal S80x10000 .f32) : k1_pay1 (F := Ideal) x0 = x0 := rfl

/-- The second body's second store: `relu (A · V) · W + b`. -/
theorem layer_block (x0 : Vec Ideal S80x10000 .f32) (x3 : Vec Ideal S10000x128 .bf16) (x8 : Vec Ideal S128x128 .f32)
    (x10 : Vec Ideal S1x128 .f32) :
    k1_pay2 (F := Ideal) x0 x3 x8 x10 = addRowM (prod (relu (prod x0 x3)) x8) x10 := by
  unfold k1_pay2
  dsimp only
  rw [copy_block, shapeCast_self, truncf_eq, prod_80_10000, relu_eq, prod_80_128, addRow_eq]

/-- The third body: the same layer from the copied adjacency. -/
theorem layer_block' (x0 : Vec Ideal S400x10000 .bf16) (x2 : Vec Ideal S10000x128 .bf16) (x7 : Vec Ideal S128x128 .f32)
    (x9 : Vec Ideal S1x128 .f32) :
    k2_pay1 (F := Ideal) x0 x2 x7 x9 = addRowM (prod (relu (prod x0 x2)) x7) x9 := by
  unfold k2_pay1
  dsimp only
  rw [shapeCast_self, shapeCast_self, truncf_eq, prod_400_10000, relu_eq, prod_400_128, addRow_eq]

/-- The fourth body's first store: the aggregate `A · V`. -/
theorem emb_block (x0 : Vec Ideal S400x10000 .bf16) (x2 : Vec Ideal S10000x128 .bf16) :
    k3_pay1 (F := Ideal) x0 x2 = prod x0 x2 := by
  unfold k3_pay1
  dsimp only
  rw [shapeCast_self, shapeCast_self, prod_400_10000]

/-- The fourth body's second store: the projection head of the aggregate. -/
theorem head_block (x0 : Vec Ideal S400x10000 .bf16) (x2 : Vec Ideal S10000x128 .bf16) (x6 : Vec Ideal S128x128 .f32)
    (x8 : Vec Ideal S1x128 .f32) (x14 : Vec Ideal S128x128 .f32) (x16 : Vec Ideal S1x128 .f32) :
    k3_pay2 (F := Ideal) x0 x2 x6 x8 x14 x16
      = addRowM (prod (relu (addRowM (prod (prod x0 x2) x6) x8)) x14) x16 := by
  unfold k3_pay2
  dsimp only
  rw [emb_block, prod_400_128, addRow_eq, relu_eq, prod_400_128, addRow_eq]

end Cert.KernelIdeal.Pay

end
-- ==== Proof.Region0.lean ====
/-
  The first region: five blocks of 2000 rows of the node features, each multiplied with the first layer's weights
  and shifted by its bias. Every block the region writes back is a block of rows of one whole-array function of the
  arrays the region finds, and the blocks cover the output, so the output ends holding that function.
-/
import proofs.«135985_g30502857736250_cont_9to1_2214_3_alg».proof.Proof.Gen.KernelIdeal.Frame
import proofs.«135985_g30502857736250_cont_9to1_2214_3_alg».proof.Proof.Payloads

set_option maxRecDepth 16384

noncomputable section

namespace Cert.KernelIdeal.Reg0

open Cert.KernelIdeal Cert.KernelIdeal.Gen Cert.KernelIdeal.Pay Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The whole-block rectangle's offsets are zero, however they are spelt. -/
theorem hz : (![0, 0] : Fin 2 → Nat) = fun _ => 0 := funext fun a => by fin_cases a <;> rfl

/-- The index maps over the grid: a row-blocked window is at block row `t`, column block `0`; a window that is its whole
    array stays at block `(0, 0)`. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array row under row `r` of the block at point `t`. -/
def rowAt (t : Fin cfg0.N) (r : Fin 2000) : Fin 10000 :=
  ((cfg0.win 3).blk t).view.emb (ix2 r (0 : Fin 128)) 0

/-- Input window 0's block at point `t` is those rows of its array. -/
theorem blk_in0 (c : Dev nD) (t : Fin cfg0.N) :
    iblk0 V c 0 t = rowsAt (n := 10000) (d := 128) (rowAt t) (V c main_arg0) := by
  obtain ⟨e0_0, e0_1, e1_0, e1_1, e2_0, e2_1, e3_0, e3_1⟩ := idx t
  funext y
  show V c main_arg0 (((cfg0.win 0).blk t).view.emb y) = V c main_arg0 (ix2 (rowAt t (y 0)) (y 1))
  refine congrArg (V c main_arg0) (funext fun a => Fin.ext ?_)
  match a with
  | ⟨0, _⟩ =>
    show win0_0.index t (0 : Fin 2) * 2000 + 1 * (y 0).val = win0_3.index t (0 : Fin 2) * 2000 + 1 * (y 0).val
    omega
  | ⟨1, _⟩ =>
    show win0_0.index t (1 : Fin 2) * 128 + 1 * (y 1).val = (y 1).val
    omega

/-- Input window 1's block is its whole array at every point. -/
theorem blk_in1 (c : Dev nD) (t : Fin cfg0.N) : iblk0 V c 1 t = V c main_arg2 := by
  obtain ⟨e0_0, e0_1, e1_0, e1_1, e2_0, e2_1, e3_0, e3_1⟩ := idx t
  funext y
  show V c main_arg2 (((cfg0.win 1).blk t).view.emb y) = V c main_arg2 y
  refine congrArg (V c main_arg2) (funext fun a => Fin.ext ?_)
  match a with
  | ⟨0, _⟩ =>
    show win0_1.index t (0 : Fin 2) * 128 + 1 * (y 0).val = (y 0).val
    omega
  | ⟨1, _⟩ =>
    show win0_1.index t (1 : Fin 2) * 128 + 1 * (y 1).val = (y 1).val
    omega

/-- Input window 2's block is its whole array at every point. -/
theorem blk_in2 (c : Dev nD) (t : Fin cfg0.N) : iblk0 V c 2 t = V c main_v0 := by
  obtain ⟨e0_0, e0_1, e1_0, e1_1, e2_0, e2_1, e3_0, e3_1⟩ := idx t
  funext y
  show V c main_v0 (((cfg0.win 2).blk t).view.emb y) = V c main_v0 y
  refine congrArg (V c main_v0) (funext fun a => Fin.ext ?_)
  match a with
  | ⟨0, _⟩ =>
    show win0_2.index t (0 : Fin 2) * 1 + 1 * (y 0).val = (y 0).val
    omega
  | ⟨1, _⟩ =>
    show win0_2.index t (1 : Fin 2) * 128 + 1 * (y 1).val = (y 1).val
    omega

/-- Output window 3's block at point `t`, read off any array contents, is those rows of the contents. -/
theorem blk_out3 (t : Fin cfg0.N) (G : Mat 10000 128) :
    ((cfg0.win 3).blk t).view.read (Elt Ideal) G = rowsAt (rowAt t) G := by
  obtain ⟨e0_0, e0_1, e1_0, e1_1, e2_0, e2_1, e3_0, e3_1⟩ := idx t
  funext y
  show G (((cfg0.win 3).blk t).view.emb y) = G (ix2 (rowAt t (y 0)) (y 1))
  refine congrArg G (funext fun a => Fin.ext ?_)
  match a with
  | ⟨0, _⟩ =>
    show win0_3.index t (0 : Fin 2) * 2000 + 1 * (y 0).val = win0_3.index t (0 : Fin 2) * 2000 + 1 * (y 0).val
    omega
  | ⟨1, _⟩ =>
    show win0_3.index t (1 : Fin 2) * 128 + 1 * (y 1).val = (y 1).val
    omega

/-- The affine image `x · W + b` of the region's entry arrays. -/
def G3 (c : Dev nD) : Mat 10000 128 := addRowM (n := 10000) (h := 128) (prod (n := 10000) (d := 128) (h := 128) (V c main_arg0) (V c main_arg2)) (V c main_v0)

/-- What point `t` writes back through output window 3 is block `t` of that function of the entry arrays: the
    stored value is the body's operations of the loaded blocks, the first of which is a block of rows, and every
    operation acts row by row. -/
theorem flushed3 (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3, blk_out3]
  unfold out0_3
  rw [View.canon_unit_zero hz]
  simp only [View.ld_unit_zero (S := S2000x128) hz, View.ld_unit_zero (S := S128x128) hz, View.ld_unit_zero (S := S1x128) hz]
  rw [affine_block, blk_in0, blk_in1, blk_in2]
  rfl

/-- An index of the array is in point `t`'s block iff each coordinate is in the block's range on its axis. -/
theorem mem_blk3 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Every row of the array lies in the block of the point numbered by the row's quotient by the block height. -/
theorem cover3 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : grid0.N = 5 := N_0
  have ht : (i 0).val / 2000 < grid0.N := by rw [hN]; omega
  obtain ⟨e0_0, e0_1, e1_0, e1_1, e2_0, e2_1, e3_0, e3_1⟩ := idx ⟨(i 0).val / 2000, ht⟩
  refine ⟨⟨(i 0).val / 2000, ht⟩, flush0_3 _, ?_⟩
  rw [mem_blk3]
  have q0 : win0_3.index ⟨(i 0).val / 2000, ht⟩ (0 : Fin 2) = (i 0).val / 2000 := e3_0
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    omega

/-- The array after the region: that function of the entry arrays, everywhere. -/
theorem final3 (c : Dev nD) : (dat0 V c).arrAt 3 cfg0.N = G3 V c :=
  (dat0 V c).arrAt_eq_of_cover 3 (G3 V c) (fun t _ => flushed3 V c t) cover3

end Cert.KernelIdeal.Reg0

end
-- ==== Proof.Region1.lean ====
/-
  The second region: 125 blocks of 80 rows of the adjacency matrix. Each point writes its adjacency block back
  unchanged (the copy the later regions read) and the next layer's affine image of the rectified aggregate of its rows.
  Both outputs end holding one whole-array function of the arrays the region finds.
-/
import proofs.«135985_g30502857736250_cont_9to1_2214_3_alg».proof.Proof.Gen.KernelIdeal.Frame
import proofs.«135985_g30502857736250_cont_9to1_2214_3_alg».proof.Proof.Payloads

set_option maxRecDepth 16384

noncomputable section

namespace Cert.KernelIdeal.Reg1

open Cert.KernelIdeal Cert.KernelIdeal.Gen Cert.KernelIdeal.Pay Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The whole-block rectangle's offsets are zero, however they are spelt. -/
theorem hz : (![0, 0] : Fin 2 → Nat) = fun _ => 0 := funext fun a => by fin_cases a <;> rfl

/-- The index maps over the grid: a row-blocked window is at block row `t`, column block `0`; a window that is its whole
    array stays at block `(0, 0)`. -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The array row under row `r` of the block at point `t`. -/
def rowAt (t : Fin cfg1.N) (r : Fin 80) : Fin 10000 :=
  ((cfg1.win 4).blk t).view.emb (ix2 r (0 : Fin 10000)) 0

/-- Input window 0's block at point `t` is those rows of its array. -/
theorem blk_in0 (c : Dev nD) (t : Fin cfg1.N) :
    iblk1 V c 0 t = rowsAt (n := 10000) (d := 10000) (rowAt t) (V c main_arg1) := by
  obtain ⟨e0_0, e0_1, e1_0, e1_1, e2_0, e2_1, e3_0, e3_1, e4_0, e4_1, e5_0, e5_1⟩ := idx t
  funext y
  show V c main_arg1 (((cfg1.win 0).blk t).view.emb y) = V c main_arg1 (ix2 (rowAt t (y 0)) (y 1))
  refine congrArg (V c main_arg1) (funext fun a => Fin.ext ?_)
  match a with
  | ⟨0, _⟩ =>
    show win1_0.index t (0 : Fin 2) * 80 + 1 * (y 0).val = win1_4.index t (0 : Fin 2) * 80 + 1 * (y 0).val
    omega
  | ⟨1, _⟩ =>
    show win1_0.index t (1 : Fin 2) * 10000 + 1 * (y 1).val = (y 1).val
    omega

/-- Input window 1's block is its whole array at every point. -/
theorem blk_in1 (c : Dev nD) (t : Fin cfg1.N) : iblk1 V c 1 t = V c main_v1 := by
  obtain ⟨e0_0, e0_1, e1_0, e1_1, e2_0, e2_1, e3_0, e3_1, e4_0, e4_1, e5_0, e5_1⟩ := idx t
  funext y
  show V c main_v1 (((cfg1.win 1).blk t).view.emb y) = V c main_v1 y
  refine congrArg (V c main_v1) (funext fun a => Fin.ext ?_)
  match a with
  | ⟨0, _⟩ =>
    show win1_1.index t (0 : Fin 2) * 10000 + 1 * (y 0).val = (y 0).val
    omega
  | ⟨1, _⟩ =>
    show win1_1.index t (1 : Fin 2) * 128 + 1 * (y 1).val = (y 1).val
    omega

/-- Input window 2's block is its whole array at every point. -/
theorem blk_in2 (c : Dev nD) (t : Fin cfg1.N) : iblk1 V c 2 t = V c main_arg4 := by
  obtain ⟨e0_0, e0_1, e1_0, e1_1, e2_0, e2_1, e3_0, e3_1, e4_0, e4_1, e5_0, e5_1⟩ := idx t
  funext y
  show V c main_arg4 (((cfg1.win 2).blk t).view.emb y) = V c main_arg4 y
  refine congrArg (V c main_arg4) (funext fun a => Fin.ext ?_)
  match a with
  | ⟨0, _⟩ =>
    show win1_2.index t (0 : Fin 2) * 128 + 1 * (y 0).val = (y 0).val
    omega
  | ⟨1, _⟩ =>
    show win1_2.index t (1 : Fin 2) * 128 + 1 * (y 1).val = (y 1).val
    omega

/-- Input window 3's block is its whole array at every point. -/
theorem blk_in3 (c : Dev nD) (t : Fin cfg1.N) : iblk1 V c 3 t = V c main_v2 := by
  obtain ⟨e0_0, e0_1, e1_0, e1_1, e2_0, e2_1, e3_0, e3_1, e4_0, e4_1, e5_0, e5_1⟩ := idx t
  funext y
  show V c main_v2 (((cfg1.win 3).blk t).view.emb y) = V c main_v2 y
  refine congrArg (V c main_v2) (funext fun a => Fin.ext ?_)
  match a with
  | ⟨0, _⟩ =>
    show win1_3.index t (0 : Fin 2) * 1 + 1 * (y 0).val = (y 0).val
    omega
  | ⟨1, _⟩ =>
    show win1_3.index t (1 : Fin 2) * 128 + 1 * (y 1).val = (y 1).val
    omega

/-- Output window 4's block at point `t`, read off any array contents, is those rows of the contents. -/
theorem blk_out4 (t : Fin cfg1.N) (G : Mat 10000 10000) :
    ((cfg1.win 4).blk t).view.read (Elt Ideal) G = rowsAt (rowAt t) G := by
  obtain ⟨e0_0, e0_1, e1_0, e1_1, e2_0, e2_1, e3_0, e3_1, e4_0, e4_1, e5_0, e5_1⟩ := idx t
  funext y
  show G (((cfg1.win 4).blk t).view.emb y) = G (ix2 (rowAt t (y 0)) (y 1))
  refine congrArg G (funext fun a => Fin.ext ?_)
  match a with
  | ⟨0, _⟩ =>
    show win1_4.index t (0 : Fin 2) * 80 + 1 * (y 0).val = win1_4.index t (0 : Fin 2) * 80 + 1 * (y 0).val
    omega
  | ⟨1, _⟩ =>
    show win1_4.index t (1 : Fin 2) * 10000 + 1 * (y 1).val = (y 1).val
    omega

/-- The adjacency matrix itself. -/
def G4 (c : Dev nD) : Mat 10000 10000 := (V c main_arg1)

/-- What point `t` writes back through output window 4 is block `t` of that function of the entry arrays: the
    stored value is the body's operations of the loaded blocks, the first of which is a block of rows, and every
    operation acts row by row. -/
theorem flushed4 (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4, blk_out4]
  unfold out1_4
  rw [View.canon_unit_zero hz]
  simp only [View.ld_unit_zero (S := S80x10000) hz, View.ld_unit_zero (S := S10000x128) hz, View.ld_unit_zero (S := S128x128) hz, View.ld_unit_zero (S := S1x128) hz]
  rw [copy_block, blk_in0]
  rfl

/-- An index of the array is in point `t`'s block iff each coordinate is in the block's range on its axis. -/
theorem mem_blk4 (t : Fin cfg1.N) (i : S10000x10000.Idx) :
    i ∈ ((cfg1.win 4).blk t).view.set ↔ ∀ a : Fin 2, win1_4.index t a * S80x10000.size a ≤ (i a).val ∧ (i a).val < win1_4.index t a * S80x10000.size a + S80x10000.size a := by
  show i ∈ ((View.whole main_v3_0).slice (win1_4.rect t)).set ↔ _
  rw [View.set_slice_whole, Rect.mem_set_unit]
  exact Iff.rfl

/-- Every row of the array lies in the block of the point numbered by the row's quotient by the block height. -/
theorem cover4 (i : S10000x10000.Idx) :
    ∃ t : Fin cfg1.N, (cfg1.win 4).flush t = true ∧ i ∈ ((cfg1.win 4).blk t).view.set := by
  have hi0 : (i 0).val < 10000 := (i 0).isLt
  have hi1 : (i 1).val < 10000 := (i 1).isLt
  have hN : grid1.N = 125 := N_1
  have ht : (i 0).val / 80 < grid1.N := by rw [hN]; omega
  obtain ⟨e0_0, e0_1, e1_0, e1_1, e2_0, e2_1, e3_0, e3_1, e4_0, e4_1, e5_0, e5_1⟩ := idx ⟨(i 0).val / 80, ht⟩
  refine ⟨⟨(i 0).val / 80, ht⟩, flush1_4 _, ?_⟩
  rw [mem_blk4]
  have q0 : win1_4.index ⟨(i 0).val / 80, ht⟩ (0 : Fin 2) = (i 0).val / 80 := e4_0
  intro a
  match a with
  | ⟨0, _⟩ =>
    show win1_4.index ⟨(i 0).val / 80, ht⟩ (0 : Fin 2) * 80 ≤ (i 0).val ∧ (i 0).val < win1_4.index ⟨(i 0).val / 80, ht⟩ (0 : Fin 2) * 80 + 80
    omega
  | ⟨1, _⟩ =>
    show win1_4.index ⟨(i 0).val / 80, ht⟩ (1 : Fin 2) * 10000 ≤ (i 1).val ∧ (i 1).val < win1_4.index ⟨(i 0).val / 80, ht⟩ (1 : Fin 2) * 10000 + 10000
    omega

/-- The array after the region: that function of the entry arrays, everywhere. -/
theorem final4 (c : Dev nD) : (dat1 V c).arrAt 4 cfg1.N = G4 V c :=
  (dat1 V c).arrAt_eq_of_cover 4 (G4 V c) (fun t _ => flushed4 V c t) cover4

/-- Output window 5's block at point `t`, read off any array contents, is those rows of the contents. -/
theorem blk_out5 (t : Fin cfg1.N) (G : Mat 10000 128) :
    ((cfg1.win 5).blk t).view.read (Elt Ideal) G = rowsAt (rowAt t) G := by
  obtain ⟨e0_0, e0_1, e1_0, e1_1, e2_0, e2_1, e3_0, e3_1, e4_0, e4_1, e5_0, e5_1⟩ := idx t
  funext y
  show G (((cfg1.win 5).blk t).view.emb y) = G (ix2 (rowAt t (y 0)) (y 1))
  refine congrArg G (funext fun a => Fin.ext ?_)
  match a with
  | ⟨0, _⟩ =>
    show win1_5.index t (0 : Fin 2) * 80 + 1 * (y 0).val = win1_4.index t (0 : Fin 2) * 80 + 1 * (y 0).val
    omega
  | ⟨1, _⟩ =>
    show win1_5.index t (1 : Fin 2) * 128 + 1 * (y 1).val = (y 1).val
    omega

/-- The layer `relu (A · V) · W + b` of the region's entry arrays. -/
def G5 (c : Dev nD) : Mat 10000 128 := addRowM (n := 10000) (h := 128) (prod (n := 10000) (d := 128) (h := 128) (relu (prod (n := 10000) (d := 10000) (h := 128) (V c main_arg1) (V c main_v1))) (V c main_arg4)) (V c main_v2)

/-- What point `t` writes back through output window 5 is block `t` of that function of the entry arrays: the
    stored value is the body's operations of the loaded blocks, the first of which is a block of rows, and every
    operation acts row by row. -/
theorem flushed5 (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5, blk_out5]
  unfold out1_5
  rw [View.canon_unit_zero hz]
  simp only [View.ld_unit_zero (S := S80x10000) hz, View.ld_unit_zero (S := S10000x128) hz, View.ld_unit_zero (S := S128x128) hz, View.ld_unit_zero (S := S1x128) hz]
  rw [layer_block, blk_in0, blk_in1, blk_in2, blk_in3]
  rfl

/-- An index of the array is in point `t`'s block iff each coordinate is in the block's range on its axis. -/
theorem mem_blk5 (t : Fin cfg1.N) (i : S10000x128.Idx) :
    i ∈ ((cfg1.win 5).blk t).view.set ↔ ∀ a : Fin 2, win1_5.index t a * S80x128.size a ≤ (i a).val ∧ (i a).val < win1_5.index t a * S80x128.size a + S80x128.size a := by
  show i ∈ ((View.whole main_v3_1).slice (win1_5.rect t)).set ↔ _
  rw [View.set_slice_whole, Rect.mem_set_unit]
  exact Iff.rfl

/-- Every row of the array lies in the block of the point numbered by the row's quotient by the block height. -/
theorem cover5 (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : grid1.N = 125 := N_1
  have ht : (i 0).val / 80 < grid1.N := by rw [hN]; omega
  obtain ⟨e0_0, e0_1, e1_0, e1_1, e2_0, e2_1, e3_0, e3_1, e4_0, e4_1, e5_0, e5_1⟩ := idx ⟨(i 0).val / 80, ht⟩
  refine ⟨⟨(i 0).val / 80, ht⟩, flush1_5 _, ?_⟩
  rw [mem_blk5]
  have q0 : win1_5.index ⟨(i 0).val / 80, ht⟩ (0 : Fin 2) = (i 0).val / 80 := e5_0
  intro a
  match a with
  | ⟨0, _⟩ =>
    show win1_5.index ⟨(i 0).val / 80, ht⟩ (0 : Fin 2) * 80 ≤ (i 0).val ∧ (i 0).val < win1_5.index ⟨(i 0).val / 80, ht⟩ (0 : Fin 2) * 80 + 80
    omega
  | ⟨1, _⟩ =>
    show win1_5.index ⟨(i 0).val / 80, ht⟩ (1 : Fin 2) * 128 ≤ (i 1).val ∧ (i 1).val < win1_5.index ⟨(i 0).val / 80, ht⟩ (1 : Fin 2) * 128 + 128
    omega

/-- The array after the region: that function of the entry arrays, everywhere. -/
theorem final5 (c : Dev nD) : (dat1 V c).arrAt 5 cfg1.N = G5 V c :=
  (dat1 V c).arrAt_eq_of_cover 5 (G5 V c) (fun t _ => flushed5 V c t) cover5

end Cert.KernelIdeal.Reg1

end
-- ==== Proof.Region2.lean ====
/-
  The third region: 25 blocks of 400 rows of the copied adjacency matrix, each giving the next layer's affine image of
  the rectified aggregate of its rows. The output ends holding one whole-array function of the arrays the region finds.
-/
import proofs.«135985_g30502857736250_cont_9to1_2214_3_alg».proof.Proof.Gen.KernelIdeal.Frame
import proofs.«135985_g30502857736250_cont_9to1_2214_3_alg».proof.Proof.Payloads

set_option maxRecDepth 16384

noncomputable section

namespace Cert.KernelIdeal.Reg2

open Cert.KernelIdeal Cert.KernelIdeal.Gen Cert.KernelIdeal.Pay Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The whole-block rectangle's offsets are zero, however they are spelt. -/
theorem hz : (![0, 0] : Fin 2 → Nat) = fun _ => 0 := funext fun a => by fin_cases a <;> rfl

/-- The index maps over the grid: a row-blocked window is at block row `t`, column block `0`; a window that is its whole
    array stays at block `(0, 0)`. -/
theorem idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The array row under row `r` of the block at point `t`. -/
def rowAt (t : Fin cfg2.N) (r : Fin 400) : Fin 10000 :=
  ((cfg2.win 4).blk t).view.emb (ix2 r (0 : Fin 128)) 0

/-- Input window 0's block at point `t` is those rows of its array. -/
theorem blk_in0 (c : Dev nD) (t : Fin cfg2.N) :
    iblk2 V c 0 t = rowsAt (n := 10000) (d := 10000) (rowAt t) (V c main_v3_0) := by
  obtain ⟨e0_0, e0_1, e1_0, e1_1, e2_0, e2_1, e3_0, e3_1, e4_0, e4_1⟩ := idx t
  funext y
  show V c main_v3_0 (((cfg2.win 0).blk t).view.emb y) = V c main_v3_0 (ix2 (rowAt t (y 0)) (y 1))
  refine congrArg (V c main_v3_0) (funext fun a => Fin.ext ?_)
  match a with
  | ⟨0, _⟩ =>
    show win2_0.index t (0 : Fin 2) * 400 + 1 * (y 0).val = win2_4.index t (0 : Fin 2) * 400 + 1 * (y 0).val
    omega
  | ⟨1, _⟩ =>
    show win2_0.index t (1 : Fin 2) * 10000 + 1 * (y 1).val = (y 1).val
    omega

/-- Input window 1's block is its whole array at every point. -/
theorem blk_in1 (c : Dev nD) (t : Fin cfg2.N) : iblk2 V c 1 t = V c main_v3_1 := by
  obtain ⟨e0_0, e0_1, e1_0, e1_1, e2_0, e2_1, e3_0, e3_1, e4_0, e4_1⟩ := idx t
  funext y
  show V c main_v3_1 (((cfg2.win 1).blk t).view.emb y) = V c main_v3_1 y
  refine congrArg (V c main_v3_1) (funext fun a => Fin.ext ?_)
  match a with
  | ⟨0, _⟩ =>
    show win2_1.index t (0 : Fin 2) * 10000 + 1 * (y 0).val = (y 0).val
    omega
  | ⟨1, _⟩ =>
    show win2_1.index t (1 : Fin 2) * 128 + 1 * (y 1).val = (y 1).val
    omega

/-- Input window 2's block is its whole array at every point. -/
theorem blk_in2 (c : Dev nD) (t : Fin cfg2.N) : iblk2 V c 2 t = V c main_arg6 := by
  obtain ⟨e0_0, e0_1, e1_0, e1_1, e2_0, e2_1, e3_0, e3_1, e4_0, e4_1⟩ := idx t
  funext y
  show V c main_arg6 (((cfg2.win 2).blk t).view.emb y) = V c main_arg6 y
  refine congrArg (V c main_arg6) (funext fun a => Fin.ext ?_)
  match a with
  | ⟨0, _⟩ =>
    show win2_2.index t (0 : Fin 2) * 128 + 1 * (y 0).val = (y 0).val
    omega
  | ⟨1, _⟩ =>
    show win2_2.index t (1 : Fin 2) * 128 + 1 * (y 1).val = (y 1).val
    omega

/-- Input window 3's block is its whole array at every point. -/
theorem blk_in3 (c : Dev nD) (t : Fin cfg2.N) : iblk2 V c 3 t = V c main_v4 := by
  obtain ⟨e0_0, e0_1, e1_0, e1_1, e2_0, e2_1, e3_0, e3_1, e4_0, e4_1⟩ := idx t
  funext y
  show V c main_v4 (((cfg2.win 3).blk t).view.emb y) = V c main_v4 y
  refine congrArg (V c main_v4) (funext fun a => Fin.ext ?_)
  match a with
  | ⟨0, _⟩ =>
    show win2_3.index t (0 : Fin 2) * 1 + 1 * (y 0).val = (y 0).val
    omega
  | ⟨1, _⟩ =>
    show win2_3.index t (1 : Fin 2) * 128 + 1 * (y 1).val = (y 1).val
    omega

/-- Output window 4's block at point `t`, read off any array contents, is those rows of the contents. -/
theorem blk_out4 (t : Fin cfg2.N) (G : Mat 10000 128) :
    ((cfg2.win 4).blk t).view.read (Elt Ideal) G = rowsAt (rowAt t) G := by
  obtain ⟨e0_0, e0_1, e1_0, e1_1, e2_0, e2_1, e3_0, e3_1, e4_0, e4_1⟩ := idx t
  funext y
  show G (((cfg2.win 4).blk t).view.emb y) = G (ix2 (rowAt t (y 0)) (y 1))
  refine congrArg G (funext fun a => Fin.ext ?_)
  match a with
  | ⟨0, _⟩ =>
    show win2_4.index t (0 : Fin 2) * 400 + 1 * (y 0).val = win2_4.index t (0 : Fin 2) * 400 + 1 * (y 0).val
    omega
  | ⟨1, _⟩ =>
    show win2_4.index t (1 : Fin 2) * 128 + 1 * (y 1).val = (y 1).val
    omega

/-- The layer `relu (A · V) · W + b` of the region's entry arrays. -/
def G4 (c : Dev nD) : Mat 10000 128 := addRowM (n := 10000) (h := 128) (prod (n := 10000) (d := 128) (h := 128) (relu (prod (n := 10000) (d := 10000) (h := 128) (V c main_v3_0) (V c main_v3_1))) (V c main_arg6)) (V c main_v4)

/-- What point `t` writes back through output window 4 is block `t` of that function of the entry arrays: the
    stored value is the body's operations of the loaded blocks, the first of which is a block of rows, and every
    operation acts row by row. -/
theorem flushed4 (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4, blk_out4]
  unfold out2_4
  rw [View.canon_unit_zero hz]
  simp only [View.ld_unit_zero (S := S400x10000) hz, View.ld_unit_zero (S := S10000x128) hz, View.ld_unit_zero (S := S128x128) hz, View.ld_unit_zero (S := S1x128) hz]
  rw [layer_block', blk_in0, blk_in1, blk_in2, blk_in3]
  rfl

/-- An index of the array is in point `t`'s block iff each coordinate is in the block's range on its axis. -/
theorem mem_blk4 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v5).slice (win2_4.rect t)).set ↔ _
  rw [View.set_slice_whole, Rect.mem_set_unit]
  exact Iff.rfl

/-- Every row of the array lies in the block of the point numbered by the row's quotient by the block height. -/
theorem cover4 (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hN : grid2.N = 25 := N_2
  have ht : (i 0).val / 400 < grid2.N := by rw [hN]; omega
  obtain ⟨e0_0, e0_1, e1_0, e1_1, e2_0, e2_1, e3_0, e3_1, e4_0, e4_1⟩ := idx ⟨(i 0).val / 400, ht⟩
  refine ⟨⟨(i 0).val / 400, ht⟩, flush2_4 _, ?_⟩
  rw [mem_blk4]
  have q0 : win2_4.index ⟨(i 0).val / 400, ht⟩ (0 : Fin 2) = (i 0).val / 400 := e4_0
  intro a
  match a with
  | ⟨0, _⟩ =>
    show win2_4.index ⟨(i 0).val / 400, ht⟩ (0 : Fin 2) * 400 ≤ (i 0).val ∧ (i 0).val < win2_4.index ⟨(i 0).val / 400, ht⟩ (0 : Fin 2) * 400 + 400
    omega
  | ⟨1, _⟩ =>
    show win2_4.index ⟨(i 0).val / 400, ht⟩ (1 : Fin 2) * 128 ≤ (i 1).val ∧ (i 1).val < win2_4.index ⟨(i 0).val / 400, ht⟩ (1 : Fin 2) * 128 + 128
    omega

/-- The array after the region: that function of the entry arrays, everywhere. -/
theorem final4 (c : Dev nD) : (dat2 V c).arrAt 4 cfg2.N = G4 V c :=
  (dat2 V c).arrAt_eq_of_cover 4 (G4 V c) (fun t _ => flushed4 V c t) cover4

end Cert.KernelIdeal.Reg2

end
-- ==== Proof.Region3.lean ====
/-
  The fourth region: 25 blocks of 400 rows of the copied adjacency matrix. Each point writes the aggregate of its rows
  (a block of the embedding) and the projection head of that block. Both outputs end holding one whole-array function
  of the arrays the region finds.
-/
import proofs.«135985_g30502857736250_cont_9to1_2214_3_alg».proof.Proof.Gen.KernelIdeal.Frame
import proofs.«135985_g30502857736250_cont_9to1_2214_3_alg».proof.Proof.Payloads

set_option maxRecDepth 16384

noncomputable section

namespace Cert.KernelIdeal.Reg3

open Cert.KernelIdeal Cert.KernelIdeal.Gen Cert.KernelIdeal.Pay Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The whole-block rectangle's offsets are zero, however they are spelt. -/
theorem hz : (![0, 0] : Fin 2 → Nat) = fun _ => 0 := funext fun a => by fin_cases a <;> rfl

/-- The index maps over the grid: a row-blocked window is at block row `t`, column block `0`; a window that is its whole
    array stays at block `(0, 0)`. -/
theorem idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- The array row under row `r` of the block at point `t`. -/
def rowAt (t : Fin cfg3.N) (r : Fin 400) : Fin 10000 :=
  ((cfg3.win 6).blk t).view.emb (ix2 r (0 : Fin 128)) 0

/-- Input window 0's block at point `t` is those rows of its array. -/
theorem blk_in0 (c : Dev nD) (t : Fin cfg3.N) :
    iblk3 V c 0 t = rowsAt (n := 10000) (d := 10000) (rowAt t) (V c main_v3_0) := by
  obtain ⟨e0_0, e0_1, e1_0, e1_1, e2_0, e2_1, e3_0, e3_1, e4_0, e4_1, e5_0, e5_1, e6_0, e6_1, e7_0, e7_1⟩ := idx t
  funext y
  show V c main_v3_0 (((cfg3.win 0).blk t).view.emb y) = V c main_v3_0 (ix2 (rowAt t (y 0)) (y 1))
  refine congrArg (V c main_v3_0) (funext fun a => Fin.ext ?_)
  match a with
  | ⟨0, _⟩ =>
    show win3_0.index t (0 : Fin 2) * 400 + 1 * (y 0).val = win3_6.index t (0 : Fin 2) * 400 + 1 * (y 0).val
    omega
  | ⟨1, _⟩ =>
    show win3_0.index t (1 : Fin 2) * 10000 + 1 * (y 1).val = (y 1).val
    omega

/-- Input window 1's block is its whole array at every point. -/
theorem blk_in1 (c : Dev nD) (t : Fin cfg3.N) : iblk3 V c 1 t = V c main_v5 := by
  obtain ⟨e0_0, e0_1, e1_0, e1_1, e2_0, e2_1, e3_0, e3_1, e4_0, e4_1, e5_0, e5_1, e6_0, e6_1, e7_0, e7_1⟩ := idx t
  funext y
  show V c main_v5 (((cfg3.win 1).blk t).view.emb y) = V c main_v5 y
  refine congrArg (V c main_v5) (funext fun a => Fin.ext ?_)
  match a with
  | ⟨0, _⟩ =>
    show win3_1.index t (0 : Fin 2) * 10000 + 1 * (y 0).val = (y 0).val
    omega
  | ⟨1, _⟩ =>
    show win3_1.index t (1 : Fin 2) * 128 + 1 * (y 1).val = (y 1).val
    omega

/-- Input window 2's block is its whole array at every point. -/
theorem blk_in2 (c : Dev nD) (t : Fin cfg3.N) : iblk3 V c 2 t = V c main_arg8 := by
  obtain ⟨e0_0, e0_1, e1_0, e1_1, e2_0, e2_1, e3_0, e3_1, e4_0, e4_1, e5_0, e5_1, e6_0, e6_1, e7_0, e7_1⟩ := idx t
  funext y
  show V c main_arg8 (((cfg3.win 2).blk t).view.emb y) = V c main_arg8 y
  refine congrArg (V c main_arg8) (funext fun a => Fin.ext ?_)
  match a with
  | ⟨0, _⟩ =>
    show win3_2.index t (0 : Fin 2) * 128 + 1 * (y 0).val = (y 0).val
    omega
  | ⟨1, _⟩ =>
    show win3_2.index t (1 : Fin 2) * 128 + 1 * (y 1).val = (y 1).val
    omega

/-- Input window 3's block is its whole array at every point. -/
theorem blk_in3 (c : Dev nD) (t : Fin cfg3.N) : iblk3 V c 3 t = V c main_v6 := by
  obtain ⟨e0_0, e0_1, e1_0, e1_1, e2_0, e2_1, e3_0, e3_1, e4_0, e4_1, e5_0, e5_1, e6_0, e6_1, e7_0, e7_1⟩ := idx t
  funext y
  show V c main_v6 (((cfg3.win 3).blk t).view.emb y) = V c main_v6 y
  refine congrArg (V c main_v6) (funext fun a => Fin.ext ?_)
  match a with
  | ⟨0, _⟩ =>
    show win3_3.index t (0 : Fin 2) * 1 + 1 * (y 0).val = (y 0).val
    omega
  | ⟨1, _⟩ =>
    show win3_3.index t (1 : Fin 2) * 128 + 1 * (y 1).val = (y 1).val
    omega

/-- Input window 4's block is its whole array at every point. -/
theorem blk_in4 (c : Dev nD) (t : Fin cfg3.N) : iblk3 V c 4 t = V c main_arg10 := by
  obtain ⟨e0_0, e0_1, e1_0, e1_1, e2_0, e2_1, e3_0, e3_1, e4_0, e4_1, e5_0, e5_1, e6_0, e6_1, e7_0, e7_1⟩ := idx t
  funext y
  show V c main_arg10 (((cfg3.win 4).blk t).view.emb y) = V c main_arg10 y
  refine congrArg (V c main_arg10) (funext fun a => Fin.ext ?_)
  match a with
  | ⟨0, _⟩ =>
    show win3_4.index t (0 : Fin 2) * 128 + 1 * (y 0).val = (y 0).val
    omega
  | ⟨1, _⟩ =>
    show win3_4.index t (1 : Fin 2) * 128 + 1 * (y 1).val = (y 1).val
    omega

/-- Input window 5's block is its whole array at every point. -/
theorem blk_in5 (c : Dev nD) (t : Fin cfg3.N) : iblk3 V c 5 t = V c main_v7 := by
  obtain ⟨e0_0, e0_1, e1_0, e1_1, e2_0, e2_1, e3_0, e3_1, e4_0, e4_1, e5_0, e5_1, e6_0, e6_1, e7_0, e7_1⟩ := idx t
  funext y
  show V c main_v7 (((cfg3.win 5).blk t).view.emb y) = V c main_v7 y
  refine congrArg (V c main_v7) (funext fun a => Fin.ext ?_)
  match a with
  | ⟨0, _⟩ =>
    show win3_5.index t (0 : Fin 2) * 1 + 1 * (y 0).val = (y 0).val
    omega
  | ⟨1, _⟩ =>
    show win3_5.index t (1 : Fin 2) * 128 + 1 * (y 1).val = (y 1).val
    omega

/-- Output window 6's block at point `t`, read off any array contents, is those rows of the contents. -/
theorem blk_out6 (t : Fin cfg3.N) (G : Mat 10000 128) :
    ((cfg3.win 6).blk t).view.read (Elt Ideal) G = rowsAt (rowAt t) G := by
  obtain ⟨e0_0, e0_1, e1_0, e1_1, e2_0, e2_1, e3_0, e3_1, e4_0, e4_1, e5_0, e5_1, e6_0, e6_1, e7_0, e7_1⟩ := idx t
  funext y
  show G (((cfg3.win 6).blk t).view.emb y) = G (ix2 (rowAt t (y 0)) (y 1))
  refine congrArg G (funext fun a => Fin.ext ?_)
  match a with
  | ⟨0, _⟩ =>
    show win3_6.index t (0 : Fin 2) * 400 + 1 * (y 0).val = win3_6.index t (0 : Fin 2) * 400 + 1 * (y 0).val
    omega
  | ⟨1, _⟩ =>
    show win3_6.index t (1 : Fin 2) * 128 + 1 * (y 1).val = (y 1).val
    omega

/-- The aggregate `A · V` of the region's entry arrays. -/
def G6 (c : Dev nD) : Mat 10000 128 := prod (n := 10000) (d := 10000) (h := 128) (V c main_v3_0) (V c main_v5)

/-- What point `t` writes back through output window 6 is block `t` of that function of the entry arrays: the
    stored value is the body's operations of the loaded blocks, the first of which is a block of rows, and every
    operation acts row by row. -/
theorem flushed6 (c : Dev nD) (t : Fin cfg3.N) :
    (dat3 V c).flushed 6 t = ((cfg3.win 6).blk t).view.read (Elt Ideal) (G6 V c) := by
  show (cfg3.win 6).cut (grid3.coords t) ((dat3 V c).after 6 t) = _
  rw [after3_6, blk_out6]
  unfold out3_6
  rw [View.canon_unit_zero hz]
  simp only [View.ld_unit_zero (S := S400x10000) hz, View.ld_unit_zero (S := S10000x128) hz, View.ld_unit_zero (S := S128x128) hz, View.ld_unit_zero (S := S1x128) hz]
  rw [emb_block, blk_in0, blk_in1]
  rfl

/-- An index of the array is in point `t`'s block iff each coordinate is in the block's range on its axis. -/
theorem mem_blk6 (t : Fin cfg3.N) (i : S10000x128.Idx) :
    i ∈ ((cfg3.win 6).blk t).view.set ↔ ∀ a : Fin 2, win3_6.index t a * S400x128.size a ≤ (i a).val ∧ (i a).val < win3_6.index t a * S400x128.size a + S400x128.size a := by
  show i ∈ ((View.whole main_v8_0).slice (win3_6.rect t)).set ↔ _
  rw [View.set_slice_whole, Rect.mem_set_unit]
  exact Iff.rfl

/-- Every row of the array lies in the block of the point numbered by the row's quotient by the block height. -/
theorem cover6 (i : S10000x128.Idx) :
    ∃ t : Fin cfg3.N, (cfg3.win 6).flush t = true ∧ i ∈ ((cfg3.win 6).blk t).view.set := by
  have hi0 : (i 0).val < 10000 := (i 0).isLt
  have hi1 : (i 1).val < 128 := (i 1).isLt
  have hN : grid3.N = 25 := N_3
  have ht : (i 0).val / 400 < grid3.N := by rw [hN]; omega
  obtain ⟨e0_0, e0_1, e1_0, e1_1, e2_0, e2_1, e3_0, e3_1, e4_0, e4_1, e5_0, e5_1, e6_0, e6_1, e7_0, e7_1⟩ := idx ⟨(i 0).val / 400, ht⟩
  refine ⟨⟨(i 0).val / 400, ht⟩, flush3_6 _, ?_⟩
  rw [mem_blk6]
  have q0 : win3_6.index ⟨(i 0).val / 400, ht⟩ (0 : Fin 2) = (i 0).val / 400 := e6_0
  intro a
  match a with
  | ⟨0, _⟩ =>
    show win3_6.index ⟨(i 0).val / 400, ht⟩ (0 : Fin 2) * 400 ≤ (i 0).val ∧ (i 0).val < win3_6.index ⟨(i 0).val / 400, ht⟩ (0 : Fin 2) * 400 + 400
    omega
  | ⟨1, _⟩ =>
    show win3_6.index ⟨(i 0).val / 400, ht⟩ (1 : Fin 2) * 128 ≤ (i 1).val ∧ (i 1).val < win3_6.index ⟨(i 0).val / 400, ht⟩ (1 : Fin 2) * 128 + 128
    omega

/-- The array after the region: that function of the entry arrays, everywhere. -/
theorem final6 (c : Dev nD) : (dat3 V c).arrAt 6 cfg3.N = G6 V c :=
  (dat3 V c).arrAt_eq_of_cover 6 (G6 V c) (fun t _ => flushed6 V c t) cover6

/-- Output window 7's block at point `t`, read off any array contents, is those rows of the contents. -/
theorem blk_out7 (t : Fin cfg3.N) (G : Mat 10000 128) :
    ((cfg3.win 7).blk t).view.read (Elt Ideal) G = rowsAt (rowAt t) G := by
  obtain ⟨e0_0, e0_1, e1_0, e1_1, e2_0, e2_1, e3_0, e3_1, e4_0, e4_1, e5_0, e5_1, e6_0, e6_1, e7_0, e7_1⟩ := idx t
  funext y
  show G (((cfg3.win 7).blk t).view.emb y) = G (ix2 (rowAt t (y 0)) (y 1))
  refine congrArg G (funext fun a => Fin.ext ?_)
  match a with
  | ⟨0, _⟩ =>
    show win3_7.index t (0 : Fin 2) * 400 + 1 * (y 0).val = win3_6.index t (0 : Fin 2) * 400 + 1 * (y 0).val
    omega
  | ⟨1, _⟩ =>
    show win3_7.index t (1 : Fin 2) * 128 + 1 * (y 1).val = (y 1).val
    omega

/-- The projection head `relu (A · V · W + b) · W' + b'` of the region's entry arrays. -/
def G7 (c : Dev nD) : Mat 10000 128 := addRowM (n := 10000) (h := 128) (prod (n := 10000) (d := 128) (h := 128) (relu (addRowM (n := 10000) (h := 128) (prod (n := 10000) (d := 128) (h := 128) (prod (n := 10000) (d := 10000) (h := 128) (V c main_v3_0) (V c main_v5)) (V c main_arg8)) (V c main_v6))) (V c main_arg10)) (V c main_v7)

/-- What point `t` writes back through output window 7 is block `t` of that function of the entry arrays: the
    stored value is the body's operations of the loaded blocks, the first of which is a block of rows, and every
    operation acts row by row. -/
theorem flushed7 (c : Dev nD) (t : Fin cfg3.N) :
    (dat3 V c).flushed 7 t = ((cfg3.win 7).blk t).view.read (Elt Ideal) (G7 V c) := by
  show (cfg3.win 7).cut (grid3.coords t) ((dat3 V c).after 7 t) = _
  rw [after3_7, blk_out7]
  unfold out3_7
  rw [View.canon_unit_zero hz]
  simp only [View.ld_unit_zero (S := S400x10000) hz, View.ld_unit_zero (S := S10000x128) hz, View.ld_unit_zero (S := S128x128) hz, View.ld_unit_zero (S := S1x128) hz]
  rw [head_block, blk_in0, blk_in1, blk_in2, blk_in3, blk_in4, blk_in5]
  rfl

/-- An index of the array is in point `t`'s block iff each coordinate is in the block's range on its axis. -/
theorem mem_blk7 (t : Fin cfg3.N) (i : S10000x128.Idx) :
    i ∈ ((cfg3.win 7).blk t).view.set ↔ ∀ a : Fin 2, win3_7.index t a * S400x128.size a ≤ (i a).val ∧ (i a).val < win3_7.index t a * S400x128.size a + S400x128.size a := by
  show i ∈ ((View.whole main_v8_1).slice (win3_7.rect t)).set ↔ _
  rw [View.set_slice_whole, Rect.mem_set_unit]
  exact Iff.rfl

/-- Every row of the array lies in the block of the point numbered by the row's quotient by the block height. -/
theorem cover7 (i : S10000x128.Idx) :
    ∃ t : Fin cfg3.N, (cfg3.win 7).flush t = true ∧ i ∈ ((cfg3.win 7).blk t).view.set := by
  have hi0 : (i 0).val < 10000 := (i 0).isLt
  have hi1 : (i 1).val < 128 := (i 1).isLt
  have hN : grid3.N = 25 := N_3
  have ht : (i 0).val / 400 < grid3.N := by rw [hN]; omega
  obtain ⟨e0_0, e0_1, e1_0, e1_1, e2_0, e2_1, e3_0, e3_1, e4_0, e4_1, e5_0, e5_1, e6_0, e6_1, e7_0, e7_1⟩ := idx ⟨(i 0).val / 400, ht⟩
  refine ⟨⟨(i 0).val / 400, ht⟩, flush3_7 _, ?_⟩
  rw [mem_blk7]
  have q0 : win3_7.index ⟨(i 0).val / 400, ht⟩ (0 : Fin 2) = (i 0).val / 400 := e7_0
  intro a
  match a with
  | ⟨0, _⟩ =>
    show win3_7.index ⟨(i 0).val / 400, ht⟩ (0 : Fin 2) * 400 ≤ (i 0).val ∧ (i 0).val < win3_7.index ⟨(i 0).val / 400, ht⟩ (0 : Fin 2) * 400 + 400
    omega
  | ⟨1, _⟩ =>
    show win3_7.index ⟨(i 0).val / 400, ht⟩ (1 : Fin 2) * 128 ≤ (i 1).val ∧ (i 1).val < win3_7.index ⟨(i 0).val / 400, ht⟩ (1 : Fin 2) * 128 + 128
    omega

/-- The array after the region: that function of the entry arrays, everywhere. -/
theorem final7 (c : Dev nD) : (dat3 V c).arrAt 7 cfg3.N = G7 V c :=
  (dat3 V c).arrAt_eq_of_cover 7 (G7 V c) (fun t _ => flushed7 V c t) cover7

end Cert.KernelIdeal.Reg3

end
-- ==== Proof.Chain.lean ====
/-
  The four regions composed. Between regions only reshapes of the biases run, so every buffer a region reads holds
  either its launch contents, a bias laid out as one row, or an earlier region's output; following each buffer back
  through the eight segment boundaries turns the last boundary's contents of the two results into the specification's
  embedding and projection head of the launch arrays.
-/
import proofs.«135985_g30502857736250_cont_9to1_2214_3_alg».proof.Proof.Gen.KernelIdeal.Frame
import proofs.«135985_g30502857736250_cont_9to1_2214_3_alg».proof.Proof.Region0
import proofs.«135985_g30502857736250_cont_9to1_2214_3_alg».proof.Proof.Region1
import proofs.«135985_g30502857736250_cont_9to1_2214_3_alg».proof.Proof.Region2
import proofs.«135985_g30502857736250_cont_9to1_2214_3_alg».proof.Proof.Region3
import Idealize.ShloMosaic.Lib.StableHlo.Run
import Idealize.ShloMosaic.Lib.ValueLayout

set_option maxRecDepth 16384

noncomputable section

namespace Cert.KernelIdeal.Chain

open Cert.KernelIdeal Cert.KernelIdeal.Gen Cert.Gcn
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- A buffer no operation of a host stretch writes holds after the stretch what it held before. -/
local macro "host_untouched" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.reshape_writes, Finset.mem_singleton]
  repeat' apply And.intro
  all_goals exact StableHlo.devRef_ne_of_ne (by decide)))

/-! ## One boundary back: a buffer the segment does not write keeps its contents -/

theorem s1_main_arg0 (c : Dev nD) : W1 m ρ c (Proc.devRef .tc main_arg0) = W0 m ρ c (Proc.devRef .tc main_arg0) :=
  by host_untouched
theorem s1_main_arg2 (c : Dev nD) : W1 m ρ c (Proc.devRef .tc main_arg2) = W0 m ρ c (Proc.devRef .tc main_arg2) :=
  by host_untouched
theorem s3_main_arg1 (c : Dev nD) : W3 m ρ c (Proc.devRef .tc main_arg1) = W2 m ρ c (Proc.devRef .tc main_arg1) :=
  by host_untouched
theorem s2_main_arg1 (c : Dev nD) : W2 m ρ c (Proc.devRef .tc main_arg1) = W1 m ρ c (Proc.devRef .tc main_arg1) :=
  W2_of_ne m ρ c main_arg1 (by decide)
theorem s1_main_arg1 (c : Dev nD) : W1 m ρ c (Proc.devRef .tc main_arg1) = W0 m ρ c (Proc.devRef .tc main_arg1) :=
  by host_untouched
theorem s3_main_arg4 (c : Dev nD) : W3 m ρ c (Proc.devRef .tc main_arg4) = W2 m ρ c (Proc.devRef .tc main_arg4) :=
  by host_untouched
theorem s2_main_arg4 (c : Dev nD) : W2 m ρ c (Proc.devRef .tc main_arg4) = W1 m ρ c (Proc.devRef .tc main_arg4) :=
  W2_of_ne m ρ c main_arg4 (by decide)
theorem s1_main_arg4 (c : Dev nD) : W1 m ρ c (Proc.devRef .tc main_arg4) = W0 m ρ c (Proc.devRef .tc main_arg4) :=
  by host_untouched
theorem s2_main_arg5 (c : Dev nD) : W2 m ρ c (Proc.devRef .tc main_arg5) = W1 m ρ c (Proc.devRef .tc main_arg5) :=
  W2_of_ne m ρ c main_arg5 (by decide)
theorem s1_main_arg5 (c : Dev nD) : W1 m ρ c (Proc.devRef .tc main_arg5) = W0 m ρ c (Proc.devRef .tc main_arg5) :=
  by host_untouched
theorem s5_main_arg6 (c : Dev nD) : W5 m ρ c (Proc.devRef .tc main_arg6) = W4 m ρ c (Proc.devRef .tc main_arg6) :=
  by host_untouched
theorem s4_main_arg6 (c : Dev nD) : W4 m ρ c (Proc.devRef .tc main_arg6) = W3 m ρ c (Proc.devRef .tc main_arg6) :=
  W4_of_ne m ρ c main_arg6 (by decide)
theorem s3_main_arg6 (c : Dev nD) : W3 m ρ c (Proc.devRef .tc main_arg6) = W2 m ρ c (Proc.devRef .tc main_arg6) :=
  by host_untouched
theorem s2_main_arg6 (c : Dev nD) : W2 m ρ c (Proc.devRef .tc main_arg6) = W1 m ρ c (Proc.devRef .tc main_arg6) :=
  W2_of_ne m ρ c main_arg6 (by decide)
theorem s1_main_arg6 (c : Dev nD) : W1 m ρ c (Proc.devRef .tc main_arg6) = W0 m ρ c (Proc.devRef .tc main_arg6) :=
  by host_untouched
theorem s4_main_arg7 (c : Dev nD) : W4 m ρ c (Proc.devRef .tc main_arg7) = W3 m ρ c (Proc.devRef .tc main_arg7) :=
  W4_of_ne m ρ c main_arg7 (by decide)
theorem s3_main_arg7 (c : Dev nD) : W3 m ρ c (Proc.devRef .tc main_arg7) = W2 m ρ c (Proc.devRef .tc main_arg7) :=
  by host_untouched
theorem s2_main_arg7 (c : Dev nD) : W2 m ρ c (Proc.devRef .tc main_arg7) = W1 m ρ c (Proc.devRef .tc main_arg7) :=
  W2_of_ne m ρ c main_arg7 (by decide)
theorem s1_main_arg7 (c : Dev nD) : W1 m ρ c (Proc.devRef .tc main_arg7) = W0 m ρ c (Proc.devRef .tc main_arg7) :=
  by host_untouched
theorem s7_main_arg8 (c : Dev nD) : W7 m ρ c (Proc.devRef .tc main_arg8) = W6 m ρ c (Proc.devRef .tc main_arg8) :=
  by host_untouched
theorem s6_main_arg8 (c : Dev nD) : W6 m ρ c (Proc.devRef .tc main_arg8) = W5 m ρ c (Proc.devRef .tc main_arg8) :=
  W6_of_ne m ρ c main_arg8 (by decide)
theorem s5_main_arg8 (c : Dev nD) : W5 m ρ c (Proc.devRef .tc main_arg8) = W4 m ρ c (Proc.devRef .tc main_arg8) :=
  by host_untouched
theorem s4_main_arg8 (c : Dev nD) : W4 m ρ c (Proc.devRef .tc main_arg8) = W3 m ρ c (Proc.devRef .tc main_arg8) :=
  W4_of_ne m ρ c main_arg8 (by decide)
theorem s3_main_arg8 (c : Dev nD) : W3 m ρ c (Proc.devRef .tc main_arg8) = W2 m ρ c (Proc.devRef .tc main_arg8) :=
  by host_untouched
theorem s2_main_arg8 (c : Dev nD) : W2 m ρ c (Proc.devRef .tc main_arg8) = W1 m ρ c (Proc.devRef .tc main_arg8) :=
  W2_of_ne m ρ c main_arg8 (by decide)
theorem s1_main_arg8 (c : Dev nD) : W1 m ρ c (Proc.devRef .tc main_arg8) = W0 m ρ c (Proc.devRef .tc main_arg8) :=
  by host_untouched
theorem s7_main_arg10 (c : Dev nD) : W7 m ρ c (Proc.devRef .tc main_arg10) = W6 m ρ c (Proc.devRef .tc main_arg10) :=
  by host_untouched
theorem s6_main_arg10 (c : Dev nD) : W6 m ρ c (Proc.devRef .tc main_arg10) = W5 m ρ c (Proc.devRef .tc main_arg10) :=
  W6_of_ne m ρ c main_arg10 (by decide)
theorem s5_main_arg10 (c : Dev nD) : W5 m ρ c (Proc.devRef .tc main_arg10) = W4 m ρ c (Proc.devRef .tc main_arg10) :=
  by host_untouched
theorem s4_main_arg10 (c : Dev nD) : W4 m ρ c (Proc.devRef .tc main_arg10) = W3 m ρ c (Proc.devRef .tc main_arg10) :=
  W4_of_ne m ρ c main_arg10 (by decide)
theorem s3_main_arg10 (c : Dev nD) : W3 m ρ c (Proc.devRef .tc main_arg10) = W2 m ρ c (Proc.devRef .tc main_arg10) :=
  by host_untouched
theorem s2_main_arg10 (c : Dev nD) : W2 m ρ c (Proc.devRef .tc main_arg10) = W1 m ρ c (Proc.devRef .tc main_arg10) :=
  W2_of_ne m ρ c main_arg10 (by decide)
theorem s1_main_arg10 (c : Dev nD) : W1 m ρ c (Proc.devRef .tc main_arg10) = W0 m ρ c (Proc.devRef .tc main_arg10) :=
  by host_untouched
theorem s6_main_arg9 (c : Dev nD) : W6 m ρ c (Proc.devRef .tc main_arg9) = W5 m ρ c (Proc.devRef .tc main_arg9) :=
  W6_of_ne m ρ c main_arg9 (by decide)
theorem s5_main_arg9 (c : Dev nD) : W5 m ρ c (Proc.devRef .tc main_arg9) = W4 m ρ c (Proc.devRef .tc main_arg9) :=
  by host_untouched
theorem s4_main_arg9 (c : Dev nD) : W4 m ρ c (Proc.devRef .tc main_arg9) = W3 m ρ c (Proc.devRef .tc main_arg9) :=
  W4_of_ne m ρ c main_arg9 (by decide)
theorem s3_main_arg9 (c : Dev nD) : W3 m ρ c (Proc.devRef .tc main_arg9) = W2 m ρ c (Proc.devRef .tc main_arg9) :=
  by host_untouched
theorem s2_main_arg9 (c : Dev nD) : W2 m ρ c (Proc.devRef .tc main_arg9) = W1 m ρ c (Proc.devRef .tc main_arg9) :=
  W2_of_ne m ρ c main_arg9 (by decide)
theorem s1_main_arg9 (c : Dev nD) : W1 m ρ c (Proc.devRef .tc main_arg9) = W0 m ρ c (Proc.devRef .tc main_arg9) :=
  by host_untouched
theorem s6_main_arg11 (c : Dev nD) : W6 m ρ c (Proc.devRef .tc main_arg11) = W5 m ρ c (Proc.devRef .tc main_arg11) :=
  W6_of_ne m ρ c main_arg11 (by decide)
theorem s5_main_arg11 (c : Dev nD) : W5 m ρ c (Proc.devRef .tc main_arg11) = W4 m ρ c (Proc.devRef .tc main_arg11) :=
  by host_untouched
theorem s4_main_arg11 (c : Dev nD) : W4 m ρ c (Proc.devRef .tc main_arg11) = W3 m ρ c (Proc.devRef .tc main_arg11) :=
  W4_of_ne m ρ c main_arg11 (by decide)
theorem s3_main_arg11 (c : Dev nD) : W3 m ρ c (Proc.devRef .tc main_arg11) = W2 m ρ c (Proc.devRef .tc main_arg11) :=
  by host_untouched
theorem s2_main_arg11 (c : Dev nD) : W2 m ρ c (Proc.devRef .tc main_arg11) = W1 m ρ c (Proc.devRef .tc main_arg11) :=
  W2_of_ne m ρ c main_arg11 (by decide)
theorem s1_main_arg11 (c : Dev nD) : W1 m ρ c (Proc.devRef .tc main_arg11) = W0 m ρ c (Proc.devRef .tc main_arg11) :=
  by host_untouched
theorem s3_main_v1 (c : Dev nD) : W3 m ρ c (Proc.devRef .tc main_v1) = W2 m ρ c (Proc.devRef .tc main_v1) :=
  by host_untouched
theorem s5_main_v3_0 (c : Dev nD) : W5 m ρ c (Proc.devRef .tc main_v3_0) = W4 m ρ c (Proc.devRef .tc main_v3_0) :=
  by host_untouched
theorem s5_main_v3_1 (c : Dev nD) : W5 m ρ c (Proc.devRef .tc main_v3_1) = W4 m ρ c (Proc.devRef .tc main_v3_1) :=
  by host_untouched
theorem s7_main_v3_0 (c : Dev nD) : W7 m ρ c (Proc.devRef .tc main_v3_0) = W6 m ρ c (Proc.devRef .tc main_v3_0) :=
  by host_untouched
theorem s6_main_v3_0 (c : Dev nD) : W6 m ρ c (Proc.devRef .tc main_v3_0) = W5 m ρ c (Proc.devRef .tc main_v3_0) :=
  (W6_arr m ρ c 0).trans (((dat2 (V5 m ρ) c).arrAt_in 0 rfl _).trans (A_eq2 (V5 m ρ) c 0))
theorem s7_main_v5 (c : Dev nD) : W7 m ρ c (Proc.devRef .tc main_v5) = W6 m ρ c (Proc.devRef .tc main_v5) :=
  by host_untouched

/-! ## Back to the launch -/

/-- `main_arg0` still holds its launch contents at boundary 1. -/
theorem at1_main_arg0 (c : Dev nD) : W1 m ρ c (Proc.devRef .tc main_arg0) = m ((c : Thread nD τ).loc main_arg0) :=
  (s1_main_arg0 m ρ c).trans (rfl)
/-- `main_arg2` still holds its launch contents at boundary 1. -/
theorem at1_main_arg2 (c : Dev nD) : W1 m ρ c (Proc.devRef .tc main_arg2) = m ((c : Thread nD τ).loc main_arg2) :=
  (s1_main_arg2 m ρ c).trans (rfl)
/-- `main_arg3` still holds its launch contents at boundary 0. -/
theorem at0_main_arg3 (c : Dev nD) : W0 m ρ c (Proc.devRef .tc main_arg3) = m ((c : Thread nD τ).loc main_arg3) :=
  rfl
/-- `main_arg1` still holds its launch contents at boundary 3. -/
theorem at3_main_arg1 (c : Dev nD) : W3 m ρ c (Proc.devRef .tc main_arg1) = m ((c : Thread nD τ).loc main_arg1) :=
  (s3_main_arg1 m ρ c).trans ((s2_main_arg1 m ρ c).trans ((s1_main_arg1 m ρ c).trans (rfl)))
/-- `main_arg4` still holds its launch contents at boundary 3. -/
theorem at3_main_arg4 (c : Dev nD) : W3 m ρ c (Proc.devRef .tc main_arg4) = m ((c : Thread nD τ).loc main_arg4) :=
  (s3_main_arg4 m ρ c).trans ((s2_main_arg4 m ρ c).trans ((s1_main_arg4 m ρ c).trans (rfl)))
/-- `main_arg5` still holds its launch contents at boundary 2. -/
theorem at2_main_arg5 (c : Dev nD) : W2 m ρ c (Proc.devRef .tc main_arg5) = m ((c : Thread nD τ).loc main_arg5) :=
  (s2_main_arg5 m ρ c).trans ((s1_main_arg5 m ρ c).trans (rfl))
/-- `main_arg6` still holds its launch contents at boundary 5. -/
theorem at5_main_arg6 (c : Dev nD) : W5 m ρ c (Proc.devRef .tc main_arg6) = m ((c : Thread nD τ).loc main_arg6) :=
  (s5_main_arg6 m ρ c).trans ((s4_main_arg6 m ρ c).trans ((s3_main_arg6 m ρ c).trans ((s2_main_arg6 m ρ c).trans ((s1_main_arg6 m ρ c).trans (rfl)))))
/-- `main_arg7` still holds its launch contents at boundary 4. -/
theorem at4_main_arg7 (c : Dev nD) : W4 m ρ c (Proc.devRef .tc main_arg7) = m ((c : Thread nD τ).loc main_arg7) :=
  (s4_main_arg7 m ρ c).trans ((s3_main_arg7 m ρ c).trans ((s2_main_arg7 m ρ c).trans ((s1_main_arg7 m ρ c).trans (rfl))))
/-- `main_arg8` still holds its launch contents at boundary 7. -/
theorem at7_main_arg8 (c : Dev nD) : W7 m ρ c (Proc.devRef .tc main_arg8) = m ((c : Thread nD τ).loc main_arg8) :=
  (s7_main_arg8 m ρ c).trans ((s6_main_arg8 m ρ c).trans ((s5_main_arg8 m ρ c).trans ((s4_main_arg8 m ρ c).trans ((s3_main_arg8 m ρ c).trans ((s2_main_arg8 m ρ c).trans ((s1_main_arg8 m ρ c).trans (rfl)))))))
/-- `main_arg10` still holds its launch contents at boundary 7. -/
theorem at7_main_arg10 (c : Dev nD) : W7 m ρ c (Proc.devRef .tc main_arg10) = m ((c : Thread nD τ).loc main_arg10) :=
  (s7_main_arg10 m ρ c).trans ((s6_main_arg10 m ρ c).trans ((s5_main_arg10 m ρ c).trans ((s4_main_arg10 m ρ c).trans ((s3_main_arg10 m ρ c).trans ((s2_main_arg10 m ρ c).trans ((s1_main_arg10 m ρ c).trans (rfl)))))))
/-- `main_arg9` still holds its launch contents at boundary 6. -/
theorem at6_main_arg9 (c : Dev nD) : W6 m ρ c (Proc.devRef .tc main_arg9) = m ((c : Thread nD τ).loc main_arg9) :=
  (s6_main_arg9 m ρ c).trans ((s5_main_arg9 m ρ c).trans ((s4_main_arg9 m ρ c).trans ((s3_main_arg9 m ρ c).trans ((s2_main_arg9 m ρ c).trans ((s1_main_arg9 m ρ c).trans (rfl))))))
/-- `main_arg11` still holds its launch contents at boundary 6. -/
theorem at6_main_arg11 (c : Dev nD) : W6 m ρ c (Proc.devRef .tc main_arg11) = m ((c : Thread nD τ).loc main_arg11) :=
  (s6_main_arg11 m ρ c).trans ((s5_main_arg11 m ρ c).trans ((s4_main_arg11 m ρ c).trans ((s3_main_arg11 m ρ c).trans ((s2_main_arg11 m ρ c).trans ((s1_main_arg11 m ρ c).trans (rfl))))))

/-! ## The biases as rows -/

/-- After the reshape, `main_v0` holds `main_arg3`'s launch contents laid out as one row. -/
theorem row_b1 (c : Dev nD) : (W1 m ρ c (Proc.devRef .tc main_v0) : Mat 1 128) = rowOf (h := 128) (m ((c : Thread nD τ).loc main_arg3)) := by
  have e : W1 m ρ c (Proc.devRef .tc main_v0) = shapeCast S1x128 (W0 m ρ c (Proc.devRef .tc main_arg3)) shapeCasts_S128_S1x128 := by
    show StableHlo.after hostOps0 (W0 m ρ c) (Proc.devRef .tc main_v0) = _
    after_results
    rfl
  rw [e, at0_main_arg3 m ρ c]
  funext j
  obtain ⟨u, q, rfl⟩ : ∃ (u : Fin 1) (q : Fin 128), j = ix2 u q := ⟨j 0, j 1, eq_ix2 j⟩
  exact shapeCast_a_1a_apply _ _ u q

/-- After the reshape, `main_v2` holds `main_arg5`'s launch contents laid out as one row. -/
theorem row_b2 (c : Dev nD) : (W3 m ρ c (Proc.devRef .tc main_v2) : Mat 1 128) = rowOf (h := 128) (m ((c : Thread nD τ).loc main_arg5)) := by
  have e : W3 m ρ c (Proc.devRef .tc main_v2) = shapeCast S1x128 (W2 m ρ c (Proc.devRef .tc main_arg5)) shapeCasts_S128_S1x128 := by
    show StableHlo.after hostOps1 (W2 m ρ c) (Proc.devRef .tc main_v2) = _
    after_results
    rfl
  rw [e, at2_main_arg5 m ρ c]
  funext j
  obtain ⟨u, q, rfl⟩ : ∃ (u : Fin 1) (q : Fin 128), j = ix2 u q := ⟨j 0, j 1, eq_ix2 j⟩
  exact shapeCast_a_1a_apply _ _ u q

/-- After the reshape, `main_v4` holds `main_arg7`'s launch contents laid out as one row. -/
theorem row_b3 (c : Dev nD) : (W5 m ρ c (Proc.devRef .tc main_v4) : Mat 1 128) = rowOf (h := 128) (m ((c : Thread nD τ).loc main_arg7)) := by
  have e : W5 m ρ c (Proc.devRef .tc main_v4) = shapeCast S1x128 (W4 m ρ c (Proc.devRef .tc main_arg7)) shapeCasts_S128_S1x128 := by
    show StableHlo.after hostOps2 (W4 m ρ c) (Proc.devRef .tc main_v4) = _
    after_results
    rfl
  rw [e, at4_main_arg7 m ρ c]
  funext j
  obtain ⟨u, q, rfl⟩ : ∃ (u : Fin 1) (q : Fin 128), j = ix2 u q := ⟨j 0, j 1, eq_ix2 j⟩
  exact shapeCast_a_1a_apply _ _ u q

/-- After the reshape, `main_v6` holds `main_arg9`'s launch contents laid out as one row. -/
theorem row_bp1 (c : Dev nD) : (W7 m ρ c (Proc.devRef .tc main_v6) : Mat 1 128) = rowOf (h := 128) (m ((c : Thread nD τ).loc main_arg9)) := by
  have e : W7 m ρ c (Proc.devRef .tc main_v6) = shapeCast S1x128 (W6 m ρ c (Proc.devRef .tc main_arg9)) shapeCasts_S128_S1x128 := by
    show StableHlo.after hostOps3 (W6 m ρ c) (Proc.devRef .tc main_v6) = _
    after_results
    rfl
  rw [e, at6_main_arg9 m ρ c]
  funext j
  obtain ⟨u, q, rfl⟩ : ∃ (u : Fin 1) (q : Fin 128), j = ix2 u q := ⟨j 0, j 1, eq_ix2 j⟩
  exact shapeCast_a_1a_apply _ _ u q

/-- After the reshape, `main_v7` holds `main_arg11`'s launch contents laid out as one row. -/
theorem row_bp2 (c : Dev nD) : (W7 m ρ c (Proc.devRef .tc main_v7) : Mat 1 128) = rowOf (h := 128) (m ((c : Thread nD τ).loc main_arg11)) := by
  have e : W7 m ρ c (Proc.devRef .tc main_v7) = shapeCast S1x128 (W6 m ρ c (Proc.devRef .tc main_arg11)) shapeCasts_S128_S1x128 := by
    show StableHlo.after hostOps3 (W6 m ρ c) (Proc.devRef .tc main_v7) = _
    after_results
    rfl
  rw [e, at6_main_arg11 m ρ c]
  funext j
  obtain ⟨u, q, rfl⟩ : ∃ (u : Fin 1) (q : Fin 128), j = ix2 u q := ⟨j 0, j 1, eq_ix2 j⟩
  exact shapeCast_a_1a_apply _ _ u q

/-! ## The launch arrays, named -/

abbrev aX (c : Dev nD) : Mat 10000 128 := m ((c : Thread nD τ).loc main_arg0)
abbrev aA (c : Dev nD) : Mat 10000 10000 := m ((c : Thread nD τ).loc main_arg1)
abbrev aW1 (c : Dev nD) : Mat 128 128 := m ((c : Thread nD τ).loc main_arg2)
abbrev ab1 (c : Dev nD) : Row 128 := m ((c : Thread nD τ).loc main_arg3)
abbrev aW2 (c : Dev nD) : Mat 128 128 := m ((c : Thread nD τ).loc main_arg4)
abbrev ab2 (c : Dev nD) : Row 128 := m ((c : Thread nD τ).loc main_arg5)
abbrev aW3 (c : Dev nD) : Mat 128 128 := m ((c : Thread nD τ).loc main_arg6)
abbrev ab3 (c : Dev nD) : Row 128 := m ((c : Thread nD τ).loc main_arg7)
abbrev aWp1 (c : Dev nD) : Mat 128 128 := m ((c : Thread nD τ).loc main_arg8)
abbrev abp1 (c : Dev nD) : Row 128 := m ((c : Thread nD τ).loc main_arg9)
abbrev aWp2 (c : Dev nD) : Mat 128 128 := m ((c : Thread nD τ).loc main_arg10)
abbrev abp2 (c : Dev nD) : Row 128 := m ((c : Thread nD τ).loc main_arg11)

/-! ## The regions' outputs in turn -/

/-- The first layer's affine image of the features. -/
def h1 (c : Dev nD) : Mat 10000 128 := addRow (prod (aX m c) (aW1 m c)) (ab1 m c)
/-- The second layer's affine image of the rectified first aggregate. -/
def h2 (c : Dev nD) : Mat 10000 128 := addRow (prod (relu (prod (aA m c) (h1 m c))) (aW2 m c)) (ab2 m c)
/-- The third layer's affine image of the rectified second aggregate. -/
def h3 (c : Dev nD) : Mat 10000 128 := addRow (prod (relu (prod (aA m c) (h2 m c))) (aW3 m c)) (ab3 m c)

/-- After the first region its output holds the first affine image. -/
theorem out_v1 (c : Dev nD) : W2 m ρ c (Proc.devRef .tc main_v1) = h1 m c := by
  refine (W2_arr m ρ c 3).trans ((Reg0.final3 (V1 m ρ) c).trans ?_)
  dsimp only [Reg0.G3, V1]
  rw [at1_main_arg0 m ρ c, at1_main_arg2 m ρ c, row_b1 m ρ c, addRowM_rowOf]
  rfl

/-- After the second region the copy of the adjacency matrix is the adjacency matrix. -/
theorem out_adj (c : Dev nD) : W4 m ρ c (Proc.devRef .tc main_v3_0) = aA m c := by
  refine (W4_arr m ρ c 4).trans ((Reg1.final4 (V3 m ρ) c).trans ?_)
  dsimp only [Reg1.G4, V3]
  exact at3_main_arg1 m ρ c

/-- After the second region its second output holds the second affine image. -/
theorem out_v3_1 (c : Dev nD) : W4 m ρ c (Proc.devRef .tc main_v3_1) = h2 m c := by
  refine (W4_arr m ρ c 5).trans ((Reg1.final5 (V3 m ρ) c).trans ?_)
  dsimp only [Reg1.G5, V3]
  rw [at3_main_arg1 m ρ c, s3_main_v1 m ρ c, out_v1 m ρ c, at3_main_arg4 m ρ c, row_b2 m ρ c, addRowM_rowOf]
  rfl

/-- After the third region its output holds the third affine image. -/
theorem out_v5 (c : Dev nD) : W6 m ρ c (Proc.devRef .tc main_v5) = h3 m c := by
  refine (W6_arr m ρ c 4).trans ((Reg2.final4 (V5 m ρ) c).trans ?_)
  dsimp only [Reg2.G4, V5]
  rw [s5_main_v3_0 m ρ c, out_adj m ρ c, s5_main_v3_1 m ρ c, out_v3_1 m ρ c, at5_main_arg6 m ρ c, row_b3 m ρ c, addRowM_rowOf]
  rfl

/-- The fourth region still finds the adjacency matrix in the copy: the third region only read it. -/
theorem adj7 (c : Dev nD) : W7 m ρ c (Proc.devRef .tc main_v3_0) = aA m c :=
  (s7_main_v3_0 m ρ c).trans ((s6_main_v3_0 m ρ c).trans ((s5_main_v3_0 m ρ c).trans (out_adj m ρ c)))

/-- THE EMBEDDING: the first result ends holding the specification's embedding of the launch arrays. -/
theorem result_emb (c : Dev nD) : W8 m ρ c (Proc.devRef .tc main_v8_0) = emb (aA m c) (aX m c) (aW1 m c) (ab1 m c) (aW2 m c) (ab2 m c) (aW3 m c) (ab3 m c) := by
  refine (W8_arr m ρ c 6).trans ((Reg3.final6 (V7 m ρ) c).trans ?_)
  dsimp only [Reg3.G6, V7]
  rw [adj7 m ρ c, s7_main_v5 m ρ c, out_v5 m ρ c]
  rfl

/-- THE HEAD: the second result ends holding the specification's projection head of that embedding. -/
theorem result_head (c : Dev nD) :
    W8 m ρ c (Proc.devRef .tc main_v8_1) = head (emb (aA m c) (aX m c) (aW1 m c) (ab1 m c) (aW2 m c) (ab2 m c) (aW3 m c) (ab3 m c)) (aWp1 m c) (abp1 m c) (aWp2 m c) (abp2 m c) := by
  refine (W8_arr m ρ c 7).trans ((Reg3.final7 (V7 m ρ) c).trans ?_)
  dsimp only [Reg3.G7, V7]
  rw [adj7 m ρ c, s7_main_v5 m ρ c, out_v5 m ρ c, at7_main_arg8 m ρ c, row_bp1 m ρ c, at7_main_arg10 m ρ c, row_bp2 m ρ c,
    addRowM_rowOf, addRowM_rowOf]
  rfl

end Cert.KernelIdeal.Chain

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.RefValue.lean ====
/-
  The reference read as the specification. Its program is a straight line of host operations: each `dot_general` is the
  matrix product, adding a bias broadcast first to one row and then down the rows is adding the bias to every row, the
  maximum with the broadcast zero is the rectifier. Composed in program order they are the specification's embedding and
  projection head of the arguments.
-/
import proofs.«135985_g30502857736250_cont_9to1_2214_3_alg».proof.Proof.Gen.ReferenceIdeal.Read
import proofs.«135985_g30502857736250_cont_9to1_2214_3_alg».proof.Proof.Spec
import proofs.«135985_g30502857736250_cont_9to1_2214_3_alg».proof.Proof.LibDotGeneral

noncomputable section

namespace Cert.ReferenceIdeal.RefValue

open Cert.ReferenceIdeal Cert.ReferenceIdeal.Gen Cert.ReferenceIdeal.Read Cert.Gcn
open Idealize.ShloMosaic Idealize.ShloMosaic.TcCoe Idealize.ShloMosaic.ValueIdx

/-- The `[10000, 128] × [128, 128]` product of the reference is the matrix product. -/
theorem dot_small (x : FVec Ideal S10000x128 .f32) (w : FVec Ideal S128x128 .f32) :
    Host.dotGeneral dot_S10000x128_S128x128_S10000x128_1_0_0_1_n_n none x w = prod x w :=
  funext fun j => Cert.LibDotGeneral.dotGeneral_ix2 dot_S10000x128_S128x128_S10000x128_1_0_0_1_n_n none _ rfl rfl
    lhs_main_v0_0 lhs_main_v0_1 rhs_main_v0_0 rhs_main_v0_1 x w j

/-- The `[10000, 10000] × [10000, 128]` product of the reference is the matrix product. -/
theorem dot_big (a : FVec Ideal S10000x10000 .f32) (v : FVec Ideal S10000x128 .f32) :
    Host.dotGeneral dot_S10000x10000_S10000x128_S10000x128_1_0_0_1_n_n none a v = prod a v :=
  funext fun j => Cert.LibDotGeneral.dotGeneral_ix2 dot_S10000x10000_S10000x128_S10000x128_1_0_0_1_n_n none _ rfl rfl
    lhs_main_v4_0 lhs_main_v4_1 rhs_main_v4_0 rhs_main_v4_1 a v j

/-- A bias broadcast to one row, then down the 10000 rows, added entry by entry. -/
theorem bias_add (X : Mat 10000 128) (b : Row 128) :
    addf (F := Ideal) (s := S10000x128) (φ := .f32) X (broadcastInDim S10000x128 ![0, 1] bcast_S1x128_S10000x128_0_1 (broadcastInDim S1x128 ![1] bcast_S128_S1x128_1 b))
      = addRow X b := by
  funext i
  show X i + val_main_v2 (F := Ideal) b i = X i + b (ix1 (i 1))
  rw [val_main_v2_apply, val_main_v1_apply]
  exact congrArg (fun j => X i + b j) (funext fun a => match a with | ⟨0, _⟩ => rfl)

/-- The maximum with the zero constant broadcast over the matrix is the rectifier. -/
theorem relu_ref (X : Mat 10000 128) :
    maximumf (F := Ideal) (s := S10000x128) (φ := .f32) X (broadcastInDim S10000x128 ![] bcast_S_S10000x128 (constant S_ .f32 0x00000000#32)) = relu X := by
  funext i
  show max (X i) (val_main_call0_v0 (F := Ideal) i) = max (X i) 0
  rw [val_main_call0_v0_apply, val_main_call0_cst_apply]
  show max (X i) (Ideal.ofBits .f32 0x00000000#32) = max (X i) 0
  rw [Ideal.ofBits_zero_f32]

/-- The reference's second result is the specification's embedding of its arguments. -/
theorem emb_eq (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) :
    val_main_v16 (F := Ideal) x0 x1 x2 x3 x4 x5 x6 x7 = emb x1 x0 x2 x3 x4 x5 x6 x7 := by
  rw [← val_main_v16_eq]
  simp only [dot_small, dot_big]
  repeat rw [bias_add]
  repeat rw [relu_ref]
  rfl

/-- The reference's first result is the specification's projection head of that embedding. -/
theorem head_eq (x0 : FVec Ideal S10000x128 .f32) (x1 : FVec Ideal S10000x10000 .f32) (x2 : FVec Ideal S128x128 .f32) (x3 : FVec Ideal S128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) :
    val_main_v25 (F := Ideal) x0 x1 x2 x3 x4 x5 x6 x7 x8 x9 x10 x11 = head (emb x1 x0 x2 x3 x4 x5 x6 x7) x8 x9 x10 x11 := by
  rw [← val_main_v25_eq]
  simp only [dot_small, dot_big]
  repeat rw [bias_add]
  repeat rw [relu_ref]
  rfl

end Cert.ReferenceIdeal.RefValue

end
-- ==== Proof.lean ====
/-
  The certificate. The kernel is a dense three-layer graph convolution with a two-layer projection head, computed in
  four row-blocked sweeps; the reference computes the same formula with whole-matrix products. At the exact extended
  reals a change of float format is the identity and a blocked product is the product, so both programs end with the
  specification's embedding `A · (relu (A · (relu (A · (x W₁ + b₁)) W₂ + b₂)) W₃ + b₃)` and its projection head
  `relu (e Wp₁ + bp₁) Wp₂ + bp₂` of the same arguments — the same sums in the same grouping, so no finiteness of the
  inputs is used. The three frames are the generated ones (the reference's is its run with the results dropped); the
  idealization rewrote nothing, so it is preserved trivially.
-/
import proofs.«135985_g30502857736250_cont_9to1_2214_3_alg».proof.Defs
import proofs.«135985_g30502857736250_cont_9to1_2214_3_alg».proof.Proof.Gen.Kernel
import proofs.«135985_g30502857736250_cont_9to1_2214_3_alg».proof.Proof.Gen.Kernel.Frame
import proofs.«135985_g30502857736250_cont_9to1_2214_3_alg».proof.Proof.Gen.KernelIdeal
import proofs.«135985_g30502857736250_cont_9to1_2214_3_alg».proof.Proof.Gen.KernelIdeal.Frame
import proofs.«135985_g30502857736250_cont_9to1_2214_3_alg».proof.Proof.Gen.ReferenceIdeal
import proofs.«135985_g30502857736250_cont_9to1_2214_3_alg».proof.Proof.Gen.ReferenceIdeal.Run
import proofs.«135985_g30502857736250_cont_9to1_2214_3_alg».proof.Proof.Gen.ReferenceIdeal.Read
import proofs.«135985_g30502857736250_cont_9to1_2214_3_alg».proof.Proof.Gen.Pre_finite_inputs
import proofs.«135985_g30502857736250_cont_9to1_2214_3_alg».proof.Proof.RunKept
import proofs.«135985_g30502857736250_cont_9to1_2214_3_alg».proof.Proof.Chain
import proofs.«135985_g30502857736250_cont_9to1_2214_3_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's projection head and embedding
    of the kernel's launch arrays: the kernel by its four regions composed, the reference by its operations composed,
    the agreement rewritten. -/
theorem algebraic : Cert.algebraic_KernelIdeal_ReferenceIdeal := by
  intro m ρ m' ρ' _ hagree
  refine ⟨fun c => Cert.Gcn.head (n := 10000) (d := 128) (Cert.Gcn.emb (n := 10000) (d := 128) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Gcn.emb (n := 10000) (d := 128) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Kept.run (F := Ideal) m ρ)
    obtain ⟨hz, he, hargs⟩ := h c
    exact ⟨hz.trans (Cert.KernelIdeal.Chain.result_head m ρ c), he.trans (Cert.KernelIdeal.Chain.result_emb m ρ c), hargs⟩
  · refine (θ_run Cert.ReferenceIdeal.defs _ _).mono (fun r h c => ?_) (Cert.ReferenceIdeal.Value.run (F := Ideal) m' ρ')
    obtain ⟨hz, he, hargs⟩ := h c
    obtain ⟨g0, g1, g2, g3, g4, g5, g6, g7, g8, g9, g10, g11⟩ := hagree c
    refine ⟨hz.trans ?_, he.trans ?_, hargs⟩
    · rw [Cert.ReferenceIdeal.Read.val_main_v25_eq, Cert.ReferenceIdeal.RefValue.head_eq,
        g0, g1, g2, g3, g4, g5, g6, g7, g8, g9, g10, g11]
    · rw [Cert.ReferenceIdeal.Read.val_main_v16_eq, Cert.ReferenceIdeal.RefValue.emb_eq,
        g0, g1, g2, g3, g4, g5, g6, g7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
